-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S200000x128 .f32) (main_arg1 : IVec S2x6400000 32) (main_arg2 : FVec F S128x16 .f32) (main_arg3 : FVec F S16 .f32) (main_arg4 : FVec F S16x1 .f32) (main_arg5 : FVec F S1 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S8000x128 : Shape := ⟨2, ![8000, 128]⟩
abbrev S8000x16 : Shape := ⟨2, ![8000, 16]⟩
abbrev S6600000x16 : Shape := ⟨2, ![6600000, 16]⟩
abbrev S8000x1 : Shape := ⟨2, ![8000, 1]⟩
abbrev S1x16 : Shape := ⟨2, ![1, 16]⟩
abbrev S200000x1 : Shape := ⟨2, ![200000, 1]⟩
abbrev S1x1 : Shape := ⟨2, ![1, 1]⟩

abbrev nBuf : Space → Nat
  | .hbm => 81
  | .vmem => 32
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S200000, .i32⟩
  | .hbm, ⟨7, _⟩ => ⟨S1x6400000, .i32⟩
  | .hbm, ⟨8, _⟩ => ⟨S6400000, .i32⟩
  | .hbm, ⟨9, _⟩ => ⟨S6600000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S_, .i32⟩
  | .hbm, ⟨27, _⟩ => ⟨S6600000, .i32⟩
  | .hbm, ⟨28, _⟩ => ⟨S6600000, .i1⟩
  | .hbm, ⟨29, _⟩ => ⟨S_, .i32⟩
  | .hbm, ⟨30, _⟩ => ⟨S6600000, .i32⟩
  | .hbm, ⟨31, _⟩ => ⟨S6600000, .i32⟩
  | .hbm, ⟨32, _⟩ => ⟨S6600000, .i32⟩
  | .hbm, ⟨33, _⟩ => ⟨S6600000x1, .i32⟩
  | .hbm, ⟨34, _⟩ => ⟨S6600000, .f32⟩
  | .hbm, ⟨35, _⟩ => ⟨S_, .i32⟩
  | .hbm, ⟨36, _⟩ => ⟨S6600000, .i32⟩
  | .hbm, ⟨37, _⟩ => ⟨S6600000, .i1⟩
  | .hbm, ⟨38, _⟩ => ⟨S_, .i32⟩
  | .hbm, ⟨39, _⟩ => ⟨S6600000, .i32⟩
  | .hbm, ⟨40, _⟩ => ⟨S6600000, .i32⟩
  | .hbm, ⟨41, _⟩ => ⟨S6600000, .i32⟩
  | .hbm, ⟨42, _⟩ => ⟨S6600000x1, .i32⟩
  | .hbm, ⟨43, _⟩ => ⟨S6600000, .f32⟩
  | .hbm, ⟨44, _⟩ => ⟨S6600000, .f32⟩
  | .hbm, ⟨45, _⟩ => ⟨S6600000x1, .f32⟩
  | .hbm, ⟨46, _⟩ => ⟨S200000x16, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x16, .f32⟩
  | .hbm, ⟨56, _⟩ => ⟨S6600000x16, .f32⟩
  | .hbm, ⟨57, _⟩ => ⟨S_, .f32⟩
  | .hbm, ⟨58, _⟩ => ⟨S200000x16, .f32⟩
  | .hbm, ⟨59, _⟩ => ⟨S6600000x1, .i32⟩
  | .hbm, ⟨60, _⟩ => ⟨S200000x16, .f32⟩
  | .hbm, ⟨61, _⟩ => ⟨S1x16, .f32⟩
  | .hbm, ⟨62, _⟩ => ⟨S200000x16, .f32⟩
  | .hbm, ⟨63, _⟩ => ⟨S200000x1, .f32⟩
  | .hbm, ⟨64, _⟩ => ⟨S_, .i32⟩
  | .hbm, ⟨65, _⟩ => ⟨S6600000, .i32⟩
  | .hbm, ⟨66, _⟩ => ⟨S6600000, .i1⟩
  | .hbm, ⟨67, _⟩ => ⟨S_, .i32⟩
  | .hbm, ⟨68, _⟩ => ⟨S6600000, .i32⟩
  | .hbm, ⟨69, _⟩ => ⟨S6600000, .i32⟩
  | .hbm, ⟨70, _⟩ => ⟨S6600000, .i32⟩
  | .hbm, ⟨71, _⟩ => ⟨S6600000x1, .i32⟩
  | .hbm, ⟨72, _⟩ => ⟨S6600000x1, .f32⟩
  | .hbm, ⟨73, _⟩ => ⟨S6600000x1, .f32⟩
  | .hbm, ⟨74, _⟩ => ⟨S_, .f32⟩
  | .hbm, ⟨75, _⟩ => ⟨S200000x1, .f32⟩
  | .hbm, ⟨76, _⟩ => ⟨S6600000x1, .i32⟩
  | .hbm, ⟨77, _⟩ => ⟨S200000x1, .f32⟩
  | .hbm, ⟨78, _⟩ => ⟨S1x1, .f32⟩
  | .hbm, ⟨79, _⟩ => ⟨S200000x1, .f32⟩
  | .hbm, ⟨80, _⟩ => ⟨S200000, .f32⟩
  | .local _ .vmem, ⟨0, _⟩ => ⟨S8000x128, .f32⟩
  | .local _ .vmem, ⟨1, _⟩ => ⟨S8000x128, .f32⟩
  | .local _ .vmem, ⟨2, _⟩ => ⟨S128x16, .f32⟩
  | .local _ .vmem, ⟨3, _⟩ => ⟨S8000x16, .f32⟩
  | .local _ .vmem, ⟨4, _⟩ => ⟨S8000x16, .f32⟩
  | .local _ .vmem, ⟨5, _⟩ => ⟨S8000x16, .f32⟩
  | .local _ .vmem, ⟨6, _⟩ => ⟨S8000x16, .f32⟩
  | .local _ .vmem, ⟨7, _⟩ => ⟨S8000x1, .f32⟩
  | .local _ .vmem, ⟨8, _⟩ => ⟨S8000x1, .f32⟩
  | .local _ .vmem, ⟨9, _⟩ => ⟨S8000x16, .f32⟩
  | .local _ .vmem, ⟨10, _⟩ => ⟨S8000x16, .f32⟩
  | .local _ .vmem, ⟨11, _⟩ => ⟨S8000x16, .f32⟩
  | .local _ .vmem, ⟨12, _⟩ => ⟨S8000x16, .f32⟩
  | .local _ .vmem, ⟨13, _⟩ => ⟨S1x16, .f32⟩
  | .local _ .vmem, ⟨14, _⟩ => ⟨S8000x16, .f32⟩
  | .local _ .vmem, ⟨15, _⟩ => ⟨S8000x16, .f32⟩
  | .local _ .vmem, ⟨16, _⟩ => ⟨S8000x16, .f32⟩
  | .local _ .vmem, ⟨17, _⟩ => ⟨S8000x16, .f32⟩
  | .local _ .vmem, ⟨18, _⟩ => ⟨S16x1, .f32⟩
  | .local _ .vmem, ⟨19, _⟩ => ⟨S8000x1, .f32⟩
  | .local _ .vmem, ⟨20, _⟩ => ⟨S8000x1, .f32⟩
  | .local _ .vmem, ⟨21, _⟩ => ⟨S8000x1, .f32⟩
  | .local _ .vmem, ⟨22, _⟩ => ⟨S8000x1, .f32⟩
  | .local _ .vmem, ⟨23, _⟩ => ⟨S8000x1, .f32⟩
  | .local _ .vmem, ⟨24, _⟩ => ⟨S8000x1, .f32⟩
  | .local _ .vmem, ⟨25, _⟩ => ⟨S8000x1, .f32⟩
  | .local _ .vmem, ⟨26, _⟩ => ⟨S8000x1, .f32⟩
  | .local _ .vmem, ⟨27, _⟩ => ⟨S8000x1, .f32⟩
  | .local _ .vmem, ⟨28, _⟩ => ⟨S8000x1, .f32⟩
  | .local _ .vmem, ⟨29, _⟩ => ⟨S1x1, .f32⟩
  | .local _ .vmem, ⟨30, _⟩ => ⟨S8000x1, .f32⟩
  | .local _ .vmem, ⟨31, _⟩ => ⟨S8000x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![825], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![825], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  shapeCasts_S6600000_S6600000x1 : S6600000.ShapeCasts S6600000x1
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x16 : S8000x1.Broadcasts S8000x16
  bcast_S_S200000x16 : S_.BroadcastsInDim S200000x16 (![] : Fin 0 → Fin S200000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S16x1_S16x1_0_0 : ∀ a, (![0, 0] : Fin 2 → Nat) a + S16x1.size a ≤ S16x1.size a
  h_S16x1 : 0 < S16x1.numel
  bcast_S_S200000x1 : S_.BroadcastsInDim S200000x1 (![] : Fin 0 → Fin S200000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  shapeCasts_S200000x1_S200000 : S200000x1.ShapeCasts S200000
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S8000x128_S128x16_S8000x16_1_0_0_1_n_n_wf : DotDims.WF S8000x128 S128x16 S8000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S8000x16_S16x1_S8000x1_1_0_0_1_n_n_wf : DotDims.WF S8000x16 S16x1 S8000x1 [1] [0] [0] [1] [] []
  gather_S200000x1_S6600000x1_S6600000x1_1_0_n_n_0_1_11_wf : GatherDims.WF S200000x1 S6600000x1 S6600000x1 [1] [0] [] [0] [] 1 ![1, 1]
  scatter_S200000x1_S6600000x1_S6600000x1_1_0_0_1_wf : ScatterDims.WF S200000x1 S6600000x1 S6600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x16.size a ≤ S200000x16.size a
  hwx0_2 : ∀ i : grid0.Coords, EltTy.bits .f32 = 32 ∨ (Rect.block (s := S200000x16) S8000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S6600000x16.size a
  hwx1_0 : ∀ i : grid1.Coords, EltTy.bits .f32 = 32 ∨ (Rect.block (s := S6600000x16) S8000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S6600000x1.size a
  hwx1_1 : ∀ i : grid1.Coords, EltTy.bits .f32 = 32 ∨ (Rect.block (s := S6600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x16.size a ≤ S6600000x16.size a
  hwx1_2 : ∀ i : grid1.Coords, EltTy.bits .f32 = 32 ∨ (Rect.block (s := S6600000x16) S8000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x16.size a ≤ S200000x16.size a
  hwx2_0 : ∀ i : grid2.Coords, EltTy.bits .f32 = 32 ∨ (Rect.block (s := S200000x16) S8000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x16.size a ≤ S200000x16.size a
  hwx2_2 : ∀ i : grid2.Coords, EltTy.bits .f32 = 32 ∨ (Rect.block (s := S200000x16) S8000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x16.size a ≤ S200000x16.size a
  hwx3_0 : ∀ i : grid3.Coords, EltTy.bits .f32 = 32 ∨ (Rect.block (s := S200000x16) S8000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x1.size a ≤ S16x1.size a
  hwx3_1 : ∀ i : grid3.Coords, EltTy.bits .f32 = 32 ∨ (Rect.block (s := S16x1) S16x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x1.size a ≤ S200000x1.size a
  hwx3_2 : ∀ i : grid3.Coords, EltTy.bits .f32 = 32 ∨ (Rect.block (s := S200000x1) S8000x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x1.size a ≤ S6600000x1.size a
  hwx4_0 : ∀ i : grid4.Coords, EltTy.bits .f32 = 32 ∨ (Rect.block (s := S6600000x1) S8000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S6600000x1.size a
  hwx4_1 : ∀ i : grid4.Coords, EltTy.bits .f32 = 32 ∨ (Rect.block (s := S6600000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x1.size a ≤ S6600000x1.size a
  hwx4_2 : ∀ i : grid4.Coords, EltTy.bits .f32 = 32 ∨ (Rect.block (s := S6600000x1) S8000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x1.size a ≤ S200000x1.size a
  hwx5_0 : ∀ i : grid5.Coords, EltTy.bits .f32 = 32 ∨ (Rect.block (s := S200000x1) S8000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x1.size a ≤ S200000x1.size a
  hwx5_2 : ∀ i : grid5.Coords, EltTy.bits .f32 = 32 ∨ (Rect.block (s := S200000x1) S8000x1.size (cc5_transform_2 i) (hinb5_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S8000x128_S128x16_S8000x16_1_0_0_1_n_n : DotDims S8000x128 S128x16 S8000x16 where
  lhsContracting := [1]
  rhsContracting := [0]
  lhsNonContracting := [0]
  rhsNonContracting := [1]
  lhsBatch := []
  rhsBatch := []
  wf := dot_S8000x128_S128x16_S8000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S8000x16_S16x1_S8000x1_1_0_0_1_n_n : DotDims S8000x16 S16x1 S8000x1 where
  lhsContracting := [1]
  rhsContracting := [0]
  lhsNonContracting := [0]
  rhsNonContracting := [1]
  lhsBatch := []
  rhsBatch := []
  wf := dot_S8000x16_S16x1_S8000x1_1_0_0_1_n_n_wf
def gather_S200000x1_S6600000x1_S6600000x1_1_0_n_n_0_1_11 : GatherDims S200000x1 S6600000x1 S6600000x1 where
  offsetDims := [1]
  collapsedSliceDims := [0]
  operandBatchingDims := []
  startIndicesBatchingDims := []
  startIndexMap := [0]
  indexVectorDim := 1
  sliceSizes := ![1, 1]
  wf := gather_S200000x1_S6600000x1_S6600000x1_1_0_n_n_0_1_11_wf
def scatter_S200000x1_S6600000x1_S6600000x1_1_0_0_1 : ScatterDims S200000x1 S6600000x1 S6600000x1 where
  updateWindowDims := [1]
  insertedWindowDims := [0]
  scatterDimsToOperandDims := [0]
  indexVectorDim := 1
  wf := scatter_S200000x1_S6600000x1_S6600000x1_1_0_0_1_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S8000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S8000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S8000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S8000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S8000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S8000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v53) S8000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S8000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S8000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S8000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S6600000x16 : Shape := ⟨2, ![6600000, 16]⟩
abbrev S1x16 : Shape := ⟨2, ![1, 16]⟩
abbrev S200000x1 : Shape := ⟨2, ![200000, 1]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S200000, .i32⟩
  | .hbm, ⟨7, _⟩ => ⟨S1x6400000, .i32⟩
  | .hbm, ⟨8, _⟩ => ⟨S6400000, .i32⟩
  | .hbm, ⟨9, _⟩ => ⟨S6600000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S_, .i32⟩
  | .hbm, ⟨27, _⟩ => ⟨S6600000, .i32⟩
  | .hbm, ⟨28, _⟩ => ⟨S6600000, .i1⟩
  | .hbm, ⟨29, _⟩ => ⟨S_, .i32⟩
  | .hbm, ⟨30, _⟩ => ⟨S6600000, .i32⟩
  | .hbm, ⟨31, _⟩ => ⟨S6600000, .i32⟩
  | .hbm, ⟨32, _⟩ => ⟨S6600000, .i32⟩
  | .hbm, ⟨33, _⟩ => ⟨S6600000x1, .i32⟩
  | .hbm, ⟨34, _⟩ => ⟨S6600000, .f32⟩
  | .hbm, ⟨35, _⟩ => ⟨S_, .i32⟩
  | .hbm, ⟨36, _⟩ => ⟨S6600000, .i32⟩
  | .hbm, ⟨37, _⟩ => ⟨S6600000, .i1⟩
  | .hbm, ⟨38, _⟩ => ⟨S_, .i32⟩
  | .hbm, ⟨39, _⟩ => ⟨S6600000, .i32⟩
  | .hbm, ⟨40, _⟩ => ⟨S6600000, .i32⟩
  | .hbm, ⟨41, _⟩ => ⟨S6600000, .i32⟩
  | .hbm, ⟨42, _⟩ => ⟨S6600000x1, .i32⟩
  | .hbm, ⟨43, _⟩ => ⟨S6600000, .f32⟩
  | .hbm, ⟨44, _⟩ => ⟨S6600000, .f32⟩
  | .hbm, ⟨45, _⟩ => ⟨S200000x16, .f32⟩
  | .hbm, ⟨46, _⟩ => ⟨S6600000x1, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x16, .f32⟩
  | .hbm, ⟨56, _⟩ => ⟨S6600000x16, .f32⟩
  | .hbm, ⟨57, _⟩ => ⟨S6600000x16, .f32⟩
  | .hbm, ⟨58, _⟩ => ⟨S_, .f32⟩
  | .hbm, ⟨59, _⟩ => ⟨S200000x16, .f32⟩
  | .hbm, ⟨60, _⟩ => ⟨S6600000x1, .i32⟩
  | .hbm, ⟨61, _⟩ => ⟨S200000x16, .f32⟩
  | .hbm, ⟨62, _⟩ => ⟨S1x16, .f32⟩
  | .hbm, ⟨63, _⟩ => ⟨S200000x16, .f32⟩
  | .hbm, ⟨64, _⟩ => ⟨S200000x16, .f32⟩
  | .hbm, ⟨65, _⟩ => ⟨S_, .f32⟩
  | .hbm, ⟨66, _⟩ => ⟨S200000x16, .f32⟩
  | .hbm, ⟨67, _⟩ => ⟨S200000x16, .f32⟩
  | .hbm, ⟨68, _⟩ => ⟨S_, .f32⟩
  | .hbm, ⟨69, _⟩ => ⟨S6600000, .f32⟩
  | .hbm, ⟨70, _⟩ => ⟨S_, .f32⟩
  | .hbm, ⟨71, _⟩ => ⟨S200000, .f32⟩
  | .hbm, ⟨72, _⟩ => ⟨S6600000x1, .i32⟩
  | .hbm, ⟨73, _⟩ => ⟨S200000, .f32⟩
  | .hbm, ⟨74, _⟩ => ⟨S_, .f32⟩
  | .hbm, ⟨75, _⟩ => ⟨S200000, .f32⟩
  | .hbm, ⟨76, _⟩ => ⟨S200000, .i1⟩
  | .hbm, ⟨77, _⟩ => ⟨S200000, .f32⟩
  | .hbm, ⟨78, _⟩ => ⟨S_, .f32⟩
  | .hbm, ⟨79, _⟩ => ⟨S200000, .f32⟩
  | .hbm, ⟨80, _⟩ => ⟨S200000, .f32⟩
  | .hbm, ⟨81, _⟩ => ⟨S_, .i32⟩
  | .hbm, ⟨82, _⟩ => ⟨S6600000, .i32⟩
  | .hbm, ⟨83, _⟩ => ⟨S6600000, .i1⟩
  | .hbm, ⟨84, _⟩ => ⟨S_, .i32⟩
  | .hbm, ⟨85, _⟩ => ⟨S6600000, .i32⟩
  | .hbm, ⟨86, _⟩ => ⟨S6600000, .i32⟩
  | .hbm, ⟨87, _⟩ => ⟨S6600000, .i32⟩
  | .hbm, ⟨88, _⟩ => ⟨S6600000x1, .i32⟩
  | .hbm, ⟨89, _⟩ => ⟨S6600000, .f32⟩
  | .hbm, ⟨90, _⟩ => ⟨S_, .i32⟩
  | .hbm, ⟨91, _⟩ => ⟨S6600000, .i32⟩
  | .hbm, ⟨92, _⟩ => ⟨S6600000, .i1⟩
  | .hbm, ⟨93, _⟩ => ⟨S_, .i32⟩
  | .hbm, ⟨94, _⟩ => ⟨S6600000, .i32⟩
  | .hbm, ⟨95, _⟩ => ⟨S6600000, .i32⟩
  | .hbm, ⟨96, _⟩ => ⟨S6600000, .i32⟩
  | .hbm, ⟨97, _⟩ => ⟨S6600000x1, .i32⟩
  | .hbm, ⟨98, _⟩ => ⟨S6600000, .f32⟩
  | .hbm, ⟨99, _⟩ => ⟨S6600000, .f32⟩
  | .hbm, ⟨100, _⟩ => ⟨S200000x1, .f32⟩
  | .hbm, ⟨101, _⟩ => ⟨S6600000x1, .f32⟩
  | .hbm, ⟨102, _⟩ => ⟨S_, .i32⟩
  | .hbm, ⟨103, _⟩ => ⟨S6600000, .i32⟩
  | .hbm, ⟨104, _⟩ => ⟨S6600000, .i1⟩
  | .hbm, ⟨105, _⟩ => ⟨S_, .i32⟩
  | .hbm, ⟨106, _⟩ => ⟨S6600000, .i32⟩
  | .hbm, ⟨107, _⟩ => ⟨S6600000, .i32⟩
  | .hbm, ⟨108, _⟩ => ⟨S6600000, .i32⟩
  | .hbm, ⟨109, _⟩ => ⟨S6600000x1, .i32⟩
  | .hbm, ⟨110, _⟩ => ⟨S6600000x1, .f32⟩
  | .hbm, ⟨111, _⟩ => ⟨S6600000x1, .f32⟩
  | .hbm, ⟨112, _⟩ => ⟨S_, .f32⟩
  | .hbm, ⟨113, _⟩ => ⟨S200000x1, .f32⟩
  | .hbm, ⟨114, _⟩ => ⟨S6600000x1, .i32⟩
  | .hbm, ⟨115, _⟩ => ⟨S200000x1, .f32⟩
  | .hbm, ⟨116, _⟩ => ⟨S1x1, .f32⟩
  | .hbm, ⟨117, _⟩ => ⟨S200000x1, .f32⟩
  | .hbm, ⟨118, _⟩ => ⟨S200000x1, .f32⟩
  | .hbm, ⟨119, _⟩ => ⟨S200000, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_c_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_15 : Ref sig .tc := ⟨.hbm, 90, rfl⟩
abbrev main_v65 : Ref sig .tc := ⟨.hbm, 91, rfl⟩
abbrev main_v66 : Ref sig .tc := ⟨.hbm, 92, rfl⟩
abbrev main_c_16 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_17 : Ref sig .tc := ⟨.hbm, 102, rfl⟩
abbrev main_v75 : Ref sig .tc := ⟨.hbm, 103, rfl⟩
abbrev main_v76 : Ref sig .tc := ⟨.hbm, 104, rfl⟩
abbrev main_c_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_19 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x128_S128x16_S200000x16_1_0_0_1_n_n_wf : DotDims.WF S200000x128 S128x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x1_S200000x1_1_0_0_1_n_n_wf : DotDims.WF S200000x16 S16x1 S200000x1 [1] [0] [0] [1] [] []
  gather_S200000x1_S6600000x1_S6600000x1_1_0_n_n_0_1_11_wf : GatherDims.WF S200000x1 S6600000x1 S6600000x1 [1] [0] [] [0] [] 1 ![1, 1]
  scatter_S200000x1_S6600000x1_S6600000x1_1_0_0_1_wf : ScatterDims.WF S200000x1 S6600000x1 S6600000x1 [1] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x1_S200000x1_1_0_0_1_n_n : DotDims S200000x16 S16x1 S200000x1 where
  lhsContracting := [1]
  rhsContracting := [0]
  lhsNonContracting := [0]
  rhsNonContracting := [1]
  lhsBatch := []
  rhsBatch := []
  wf := dot_S200000x16_S16x1_S200000x1_1_0_0_1_n_n_wf
def gather_S200000x1_S6600000x1_S6600000x1_1_0_n_n_0_1_11 : GatherDims S200000x1 S6600000x1 S6600000x1 where
  offsetDims := [1]
  collapsedSliceDims := [0]
  operandBatchingDims := []
  startIndicesBatchingDims := []
  startIndexMap := [0]
  indexVectorDim := 1
  sliceSizes := ![1, 1]
  wf := gather_S200000x1_S6600000x1_S6600000x1_1_0_n_n_0_1_11_wf
def scatter_S200000x1_S6600000x1_S6600000x1_1_0_0_1 : ScatterDims S200000x1 S6600000x1 S6600000x1 where
  updateWindowDims := [1]
  insertedWindowDims := [0]
  scatterDimsToOperandDims := [0]
  indexVectorDim := 1
  wf := scatter_S200000x1_S6600000x1_S6600000x1_1_0_0_1_wf

class Facts : Prop extends Facts₀ where

variable [Facts]
-- ==== Proof.NamedRun.lean ====
/-
  The idealized kernel program's run with its result NAMED.

  @main is fourteen segments: eight stretches of host operations and six kernel regions. The buffer contents at every
  segment boundary are a fold from the launch memory (`Gen.W0` … `Gen.W14`: a stretch applies its operations, a region
  leaves its output array at what its grid points wrote back and every other buffer as it found it). Every weakly fair
  execution terminates without a fault, and in the final state every unscoped buffer holds the last boundary's
  contents: in particular the result buffer holds `Gen.W14` at it, and the arguments are as launched.
-/
import proofs.«180675_j55284819034805_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the fourteen segments, the last thread state read against the final state: the result buffer at
    the last boundary's contents, each argument as launched. -/
theorem run_named : θ_run defs (onTc (τ := τ) (main (F := F))) ⟨m, fun _ => 0, ρ⟩ (fun r => ∀ c : Dev nD,
      r.2.mem ((c.tc : Thread nD τ).loc main_v60) = W14 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v60 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.KernelIdeal.Named

end
-- ==== Proof.LibReadThrough.lean ====
/-
  Two facts that let a one-pass reading of a fold of host lines go all the way down to the buffers the lines start from,
  and the pass that uses them.
  • TRANSPORTS. A line of a module-local function is written through typed references: it reads an operand through
    `ofBuf` and writes its result through `toBuf`, transports along the reference's type fact. Contents written through a
    typed reference and read back through the same one are the contents (`TRef.ofBuf_toBuf`): with it a chain of such
    lines reads as the plain composition of the lines' functions, transports left only where a typed line meets a
    plain one.
  • A TWO-OPERAND CONCATENATE. The printed `concatenate t a [⟨s₁, x⟩, ⟨s₂, y⟩] h` carries a fact `h` stated over the operand
    list itself, so a rewriting pass may not change the list and never looks inside it. As `joinTwo t a s₁ s₂ h' x y`,
    an ordinary function of the two operands, the pass goes on into `x` and `y` (`concatenate_two`, by `rfl`).
  • `after_results_through`: the library's one-pass reading (`after_results_simp`) with these two added. Use it on a goal
    `after ops V (Proc.devRef .tc r) = …` over a literal list `ops`; what is left is the composed term over `V` at the
    argument buffers, for `rfl` against the intended function.
-/
import Idealize.ShloMosaic.Lib.StableHlo.Run

noncomputable section

namespace Idealize.ShloMosaic.StableHlo.TRef

variable {sig : RefSig} {Val : EltTy → Type} {T : BufTy}

/-- Contents written through a typed reference and read back through the same one are the contents. -/
theorem ofBuf_toBuf (x : TRef sig T) (v : T.Contents Val) : x.ofBuf (x.toBuf v) = v := by
  obtain ⟨r, rfl, _, _⟩ := x
  rfl

end Idealize.ShloMosaic.StableHlo.TRef

namespace Cert.LibReadThrough

open Idealize.ShloMosaic

/-- Two arrays joined along axis `a` of the result shape `t`, as a function of the two arrays. -/
def joinTwo {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The printed two-operand concatenate is that function, whatever proof of the shapes' fit it carries (the fact is
    stated over the operand list, so its type is read off the printed term). -/
theorem concatenate_two {α : Type} (t : Shape) (a : Fin t.rank) (s₁ s₂ : Shape) (x : s₁.Idx → α) (y : s₂.Idx → α) {h} :
    concatenate t a [⟨s₁, x⟩, ⟨s₂, y⟩] h = joinTwo t a s₁ s₂ h x y := rfl

end Cert.LibReadThrough

/-- The library's one-pass reading of a fold of host lines at a buffer, reading through typed-reference transports and
    into the operands of a two-operand concatenate. -/
macro "after_results_through" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Cert.LibReadThrough.concatenate_two, Idealize.ShloMosaic.StableHlo.TRef.ofBuf_toBuf]))

end
-- ==== Proof.Entry.lean ====
/-
  The host prologue of the idealized kernel program, read at the buffers the later segments use.

  Before the first kernel region @main computes, from the edge list alone, the source and target vectors with the
  self-loops appended (`row`, `col`), the degree scale and the per-edge weight `norm` as a one-column matrix; the
  reference program computes the same values with the same operations. Here each is identified with the
  reference's stage of the same edge list, in three steps along the prologue's three stretches (the degree and its
  comparison and inverse root; the selection between the root and zero; the gathers at the two ends of every edge and
  their product), and every argument array is found unchanged.
-/
import proofs.«180675_j55284819034805_2_alg».proof.Proof.Gen.KernelIdeal.Frame
import proofs.«180675_j55284819034805_2_alg».proof.Proof.RefRead
import proofs.«180675_j55284819034805_2_alg».proof.Proof.LibReadThrough

set_option maxRecDepth 16384

noncomputable section

namespace Cert.KernelIdeal.Bridge

open Cert.KernelIdeal Cert.KernelIdeal.Gen Cert.ReferenceIdeal.ReadP
open Idealize.ShloMosaic Idealize.ShloMosaic.TcCoe Idealize.SL.Sem Idealize.ShloMosaic.StableHlo

/-- The edge weights as the kernel regions read them: the reference's `norm` vector viewed as one column. -/
def normColumn (x1 : (⟨S2x6400000, .i32⟩ : BufTy).Contents (Elt Ideal)) : (⟨S6600000x1, .f32⟩ : BufTy).Contents (Elt Ideal) :=
  shapeCast S6600000x1 (val_main_v30 (F := Ideal) x1) shapeCasts_S6600000_S6600000x1

/-! ## The second and third stretches, from any contents -/

/-- The selection between the inverse root and zero, from contents holding the comparison, the root and the zeros. -/
theorem dinv_of (Z : Valuation τ sig (Elt Ideal)) (x1 : (⟨S2x6400000, .i32⟩ : BufTy).Contents (Elt Ideal))
    (h12 : Z (Proc.devRef .tc main_v12) = val_main_v12 (F := Ideal) x1) (h13 : Z (Proc.devRef .tc main_v13) = val_main_v13 (F := Ideal) x1)
    (h14 : Z (Proc.devRef .tc main_v14) = val_main_v14 (F := Ideal)) :
    StableHlo.after hostOps0_1 Z (Proc.devRef .tc main_v15) = val_main_v15 (F := Ideal) x1 := by
  have hsel : StableHlo.after hostOps0_1 Z (Proc.devRef .tc main_v15)
      = select (Z (Proc.devRef .tc main_v12) : (⟨S200000, .i1⟩ : BufTy).Contents (Elt Ideal))
          (Z (Proc.devRef .tc main_v13) : (⟨S200000, .f32⟩ : BufTy).Contents (Elt Ideal))
          (Z (Proc.devRef .tc main_v14) : (⟨S200000, .f32⟩ : BufTy).Contents (Elt Ideal)) := by
    after_results_through <;> rfl
  rw [hsel, h12, h13, h14]
  rfl

/-- A buffer the selection does not write keeps its contents. -/
theorem keep_0_1 (Z : Valuation τ sig (Elt Ideal)) (b : Ref sig .tc) (hb : b ≠ main_v15) :
    StableHlo.after hostOps0_1 Z (Proc.devRef .tc b) = Z (Proc.devRef .tc b) :=
  StableHlo.after_of_forall_not_mem (b := Proc.devRef .tc b) _ _ (List.forall_iff_forall_mem.mp (by
    simp only [hostOps0_1, List.Forall, StableHlo.TRef.ternary, StableHlo.ternary_writes, Finset.mem_singleton]
    exact StableHlo.devRef_ne_of_ne hb))

/-- The edge weights, from contents holding the scale and the two index vectors. -/
theorem norm_of (Z : Valuation τ sig (Elt Ideal)) (x1 : (⟨S2x6400000, .i32⟩ : BufTy).Contents (Elt Ideal))
    (hd : Z (Proc.devRef .tc main_v15) = val_main_v15 (F := Ideal) x1) (hr : Z (Proc.devRef .tc main_v3) = val_main_v3 (F := Ideal) x1)
    (hc : Z (Proc.devRef .tc main_v6) = val_main_v6 (F := Ideal) x1) :
    StableHlo.after hostOps0_2 Z (Proc.devRef .tc main_v31) = normColumn x1 := by
  after_results_through
  rw [hd, hr, hc]
  rfl

/-- A buffer the third stretch does not write keeps its contents (stated for the ones used later). -/
theorem keep_0_2_row (Z : Valuation τ sig (Elt Ideal)) : StableHlo.after hostOps0_2 Z (Proc.devRef .tc main_v3) = Z (Proc.devRef .tc main_v3) := by
  after_results_through
theorem keep_0_2_col (Z : Valuation τ sig (Elt Ideal)) : StableHlo.after hostOps0_2 Z (Proc.devRef .tc main_v6) = Z (Proc.devRef .tc main_v6) := by
  after_results_through
theorem keep_0_2_arg0 (Z : Valuation τ sig (Elt Ideal)) : StableHlo.after hostOps0_2 Z (Proc.devRef .tc main_arg0) = Z (Proc.devRef .tc main_arg0) := by
  after_results_through
theorem keep_0_2_arg2 (Z : Valuation τ sig (Elt Ideal)) : StableHlo.after hostOps0_2 Z (Proc.devRef .tc main_arg2) = Z (Proc.devRef .tc main_arg2) := by
  after_results_through
theorem keep_0_2_arg3 (Z : Valuation τ sig (Elt Ideal)) : StableHlo.after hostOps0_2 Z (Proc.devRef .tc main_arg3) = Z (Proc.devRef .tc main_arg3) := by
  after_results_through
theorem keep_0_2_arg4 (Z : Valuation τ sig (Elt Ideal)) : StableHlo.after hostOps0_2 Z (Proc.devRef .tc main_arg4) = Z (Proc.devRef .tc main_arg4) := by
  after_results_through
theorem keep_0_2_arg5 (Z : Valuation τ sig (Elt Ideal)) : StableHlo.after hostOps0_2 Z (Proc.devRef .tc main_arg5) = Z (Proc.devRef .tc main_arg5) := by
  after_results_through

variable (m : (ℓ : Loc nD τ sig) → Buf (Elt Ideal) ℓ) (ρ : Dev nD → PrngReg) (c : Dev nD)

/-! ## After the first stretch -/

/-- `row`: the sources, self-loops appended. -/
theorem w1_row : W1 (F := Ideal) m ρ c (Proc.devRef .tc main_v3) = val_main_v3 (F := Ideal) (m ((c : Thread nD τ).loc main_arg1)) := by
  show StableHlo.after hostOps0 (W0 m ρ c) (Proc.devRef .tc main_v3) = _
  after_results_through <;> rfl
/-- `col`: the targets, self-loops appended. -/
theorem w1_col : W1 (F := Ideal) m ρ c (Proc.devRef .tc main_v6) = val_main_v6 (F := Ideal) (m ((c : Thread nD τ).loc main_arg1)) := by
  show StableHlo.after hostOps0 (W0 m ρ c) (Proc.devRef .tc main_v6) = _
  after_results_through <;> rfl
/-- Where the degree is positive. -/
theorem w1_v12 : W1 (F := Ideal) m ρ c (Proc.devRef .tc main_v12) = val_main_v12 (F := Ideal) (m ((c : Thread nD τ).loc main_arg1)) := by
  show StableHlo.after hostOps0 (W0 m ρ c) (Proc.devRef .tc main_v12) = _
  after_results_through <;> rfl
/-- The inverse root of the degree. -/
theorem w1_v13 : W1 (F := Ideal) m ρ c (Proc.devRef .tc main_v13) = val_main_v13 (F := Ideal) (m ((c : Thread nD τ).loc main_arg1)) := by
  show StableHlo.after hostOps0 (W0 m ρ c) (Proc.devRef .tc main_v13) = _
  after_results_through <;> rfl
/-- Zeros. -/
theorem w1_v14 : W1 (F := Ideal) m ρ c (Proc.devRef .tc main_v14) = val_main_v14 (F := Ideal) := by
  show StableHlo.after hostOps0 (W0 m ρ c) (Proc.devRef .tc main_v14) = _
  after_results_through <;> rfl
theorem w1_arg0 : W1 (F := Ideal) m ρ c (Proc.devRef .tc main_arg0) = m ((c : Thread nD τ).loc main_arg0) := by
  show StableHlo.after hostOps0 (W0 m ρ c) (Proc.devRef .tc main_arg0) = _
  after_results_through <;> rfl
theorem w1_arg2 : W1 (F := Ideal) m ρ c (Proc.devRef .tc main_arg2) = m ((c : Thread nD τ).loc main_arg2) := by
  show StableHlo.after hostOps0 (W0 m ρ c) (Proc.devRef .tc main_arg2) = _
  after_results_through <;> rfl
theorem w1_arg3 : W1 (F := Ideal) m ρ c (Proc.devRef .tc main_arg3) = m ((c : Thread nD τ).loc main_arg3) := by
  show StableHlo.after hostOps0 (W0 m ρ c) (Proc.devRef .tc main_arg3) = _
  after_results_through <;> rfl
theorem w1_arg4 : W1 (F := Ideal) m ρ c (Proc.devRef .tc main_arg4) = m ((c : Thread nD τ).loc main_arg4) := by
  show StableHlo.after hostOps0 (W0 m ρ c) (Proc.devRef .tc main_arg4) = _
  after_results_through <;> rfl
theorem w1_arg5 : W1 (F := Ideal) m ρ c (Proc.devRef .tc main_arg5) = m ((c : Thread nD τ).loc main_arg5) := by
  show StableHlo.after hostOps0 (W0 m ρ c) (Proc.devRef .tc main_arg5) = _
  after_results_through <;> rfl

/-! ## At the first region's entry -/

/-- `row` at the first region's entry. -/
theorem entry_row : W3 (F := Ideal) m ρ c (Proc.devRef .tc main_v3) = val_main_v3 (F := Ideal) (m ((c : Thread nD τ).loc main_arg1)) :=
  (keep_0_2_row _).trans ((keep_0_1 _ main_v3 (by decide)).trans (w1_row m ρ c))
/-- `col` at the first region's entry. -/
theorem entry_col : W3 (F := Ideal) m ρ c (Proc.devRef .tc main_v6) = val_main_v6 (F := Ideal) (m ((c : Thread nD τ).loc main_arg1)) :=
  (keep_0_2_col _).trans ((keep_0_1 _ main_v6 (by decide)).trans (w1_col m ρ c))
/-- The edge weights, one column, at the first region's entry. -/
theorem entry_norm : W3 (F := Ideal) m ρ c (Proc.devRef .tc main_v31) = normColumn (m ((c : Thread nD τ).loc main_arg1)) :=
  norm_of (W2 m ρ c) _ (dinv_of (W1 m ρ c) _ (w1_v12 m ρ c) (w1_v13 m ρ c) (w1_v14 m ρ c))
    ((keep_0_1 _ main_v3 (by decide)).trans (w1_row m ρ c)) ((keep_0_1 _ main_v6 (by decide)).trans (w1_col m ρ c))
theorem entry_arg0 : W3 (F := Ideal) m ρ c (Proc.devRef .tc main_arg0) = m ((c : Thread nD τ).loc main_arg0) :=
  (keep_0_2_arg0 _).trans ((keep_0_1 _ main_arg0 (by decide)).trans (w1_arg0 m ρ c))
theorem entry_arg2 : W3 (F := Ideal) m ρ c (Proc.devRef .tc main_arg2) = m ((c : Thread nD τ).loc main_arg2) :=
  (keep_0_2_arg2 _).trans ((keep_0_1 _ main_arg2 (by decide)).trans (w1_arg2 m ρ c))
theorem entry_arg3 : W3 (F := Ideal) m ρ c (Proc.devRef .tc main_arg3) = m ((c : Thread nD τ).loc main_arg3) :=
  (keep_0_2_arg3 _).trans ((keep_0_1 _ main_arg3 (by decide)).trans (w1_arg3 m ρ c))
theorem entry_arg4 : W3 (F := Ideal) m ρ c (Proc.devRef .tc main_arg4) = m ((c : Thread nD τ).loc main_arg4) :=
  (keep_0_2_arg4 _).trans ((keep_0_1 _ main_arg4 (by decide)).trans (w1_arg4 m ρ c))
theorem entry_arg5 : W3 (F := Ideal) m ρ c (Proc.devRef .tc main_arg5) = m ((c : Thread nD τ).loc main_arg5) :=
  (keep_0_2_arg5 _).trans ((keep_0_1 _ main_arg5 (by decide)).trans (w1_arg5 m ρ c))

end Cert.KernelIdeal.Bridge

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibMatProd.lean ====
/-
  The product of two matrices on the extended reals as ONE whole-array function, and the two operations that compute it
  (any extents).

  For A : [a, k] and B : [k, b] the entry (p, q) of A·B is the sum over j of A (p, j) · B (j, q). At the exact instance
  the matrix unit's product into a zero accumulator and the host's dot product, both with the plain dimension numbers
  (contract the left operand's second axis against the right operand's first, no batch axis), are this function of their
  operands; a narrowing of the operands' float format beforehand changes nothing, being the identity on extended reals.
-/
import proofs.«180675_j55284819034805_2_alg».proof.Proof.LibMatmul
import Idealize.ShloMosaic.Lib.Pipeline.Value

noncomputable section

open scoped BigOperators

namespace Cert.Products

open Idealize.ShloMosaic Idealize.ShloMosaic.ValueIdx

/-- Entry (p, q) of A·B: the sum over j of A (p, j) · B (j, q). -/
def matProd {a k b : ℕ} (A : (⟨2, ![a, k]⟩ : Shape).Idx → EReal) (B : (⟨2, ![k, b]⟩ : Shape).Idx → EReal) :
    (⟨2, ![a, b]⟩ : Shape).Idx → EReal :=
  fun i => ∑ j : Fin k, A (ix2 (i 0) j) * B (ix2 j (i 1))

theorem matProd_ix2 {a k b : ℕ} (A : (⟨2, ![a, k]⟩ : Shape).Idx → EReal) (B : (⟨2, ![k, b]⟩ : Shape).Idx → EReal)
    (p : Fin a) (q : Fin b) : matProd A B (ix2 p q) = ∑ j : Fin k, A (ix2 p j) * B (ix2 j q) := rfl

section Plain

variable {a k b : ℕ} (d : DotDims ⟨2, ![a, k]⟩ ⟨2, ![k, b]⟩ ⟨2, ![a, b]⟩)
variable (hl : d.lhsContracting = [1]) (hr : d.rhsContracting = [0]) (hln : d.lhsNonContracting = [0])
variable (hrn : d.rhsNonContracting = [1]) (hlb : d.lhsBatch = []) (hrb : d.rhsBatch = [])
variable {φ₁ φ₂ : FTy}

include hl hr hln hrn hlb hrb in
/-- The matrix unit's product into the zero accumulator is the product. -/
theorem matmul_zero_eq (prec : Option ContractPrecision) (lhs : FVec Ideal ⟨2, ![a, k]⟩ φ₁) (rhs : FVec Ideal ⟨2, ![k, b]⟩ φ₂) :
    FloatOps.matmul d prec lhs rhs (constant ⟨2, ![a, b]⟩ .f32 0x00000000#32) = matProd lhs rhs := by
  funext i
  obtain ⟨p, q, rfl⟩ : ∃ (p : Fin a) (q : Fin b), i = ix2 p q := ⟨i 0, i 1, eq_ix2 i⟩
  exact matmul_zero_ix2 d hl hr hln hrn hlb hrb prec lhs rhs p q

include hl hr hln hrn hlb hrb in
/-- The host's dot product is the product. -/
theorem dotGeneral_eq (prec : Option ContractPrecision) (sched : HostSchedule) (lhs : FVec Ideal ⟨2, ![a, k]⟩ φ₁)
    (rhs : FVec Ideal ⟨2, ![k, b]⟩ φ₂) :
    FloatOps.dotGeneral d prec sched lhs rhs = matProd lhs rhs := by
  funext i
  obtain ⟨p, q, rfl⟩ : ∃ (p : Fin a) (q : Fin b), i = ix2 p q := ⟨i 0, i 1, eq_ix2 i⟩
  exact dotGeneral_ix2 d hl hr hln hrn hlb hrb prec sched lhs rhs p q

end Plain

/-- Narrowing both operands to bf16 first changes nothing: on extended reals the narrowing is the identity. -/
theorem matProd_narrowed {a k b : ℕ} (A : FVec Ideal ⟨2, ![a, k]⟩ .f32) (B : FVec Ideal ⟨2, ![k, b]⟩ .f32)
    (hA hB : FTy.bf16.bits < FTy.f32.bits) :
    matProd (truncf .bf16 A hA) (truncf .bf16 B hB) = matProd A B := rfl

/-- A product depends on its left operand only through the rows it reads: if A' (p', ·) is row p of A, the entries
    (p', q) of A'·B and (p, q) of A·B agree. -/
theorem matProd_row {a a' k b : ℕ} (A : (⟨2, ![a, k]⟩ : Shape).Idx → EReal) (A' : (⟨2, ![a', k]⟩ : Shape).Idx → EReal)
    (B : (⟨2, ![k, b]⟩ : Shape).Idx → EReal) (p : Fin a) (p' : Fin a') (q : Fin b)
    (h : ∀ j : Fin k, A' (ix2 p' j) = A (ix2 p j)) : matProd A' B (ix2 p' q) = matProd A B (ix2 p q) := by
  rw [matProd_ix2, matProd_ix2]
  exact Finset.sum_congr rfl fun j _ => by rw [h j]

end Cert.Products

end
-- ==== Proof.Stages.lean ====
/-
  The dense stages of the two graph-convolution layers as whole-array functions on the extended reals, for any extents.

  Besides the matrix product (entry (p, q) of A·B is the sum over j of A (p, j) · B (j, q)) a layer has two
  row-wise stages: every row e of a message matrix is multiplied by the e-th entry of a one-column matrix of edge
  weights, and a one-row bias is added to every row of an aggregate, followed or not by the rectifier max(·, 0).
-/
import proofs.«180675_j55284819034805_2_alg».proof.Proof.LibMatProd
import Idealize.ShloMosaic.Lib.ValueIdx
import Idealize.ShloMosaic.PureOps.Ideal

noncomputable section

namespace Cert.Stages

open Idealize.ShloMosaic Idealize.ShloMosaic.ValueIdx

/-- Row e of `h` times the e-th edge weight: entry (e, f) is h (e, f) · n (e, 0). -/
def scaleRows {e f : ℕ} (h : (⟨2, ![e, f]⟩ : Shape).Idx → EReal) (n : (⟨2, ![e, 1]⟩ : Shape).Idx → EReal) :
    (⟨2, ![e, f]⟩ : Shape).Idx → EReal :=
  fun i => h i * n (ix2 (i 0) (0 : Fin 1))

/-- The bias row added to every row: entry (p, f) is x (p, f) + b (0, f). -/
def biasRows {a f : ℕ} (x : (⟨2, ![a, f]⟩ : Shape).Idx → EReal) (b : (⟨2, ![1, f]⟩ : Shape).Idx → EReal) :
    (⟨2, ![a, f]⟩ : Shape).Idx → EReal :=
  fun i => x i + b (ix2 (0 : Fin 1) (i 1))

/-- The bias row added to every row, then the rectifier: entry (p, f) is max (x (p, f) + b (0, f)) 0. -/
def biasRelu {a f : ℕ} (x : (⟨2, ![a, f]⟩ : Shape).Idx → EReal) (b : (⟨2, ![1, f]⟩ : Shape).Idx → EReal) :
    (⟨2, ![a, f]⟩ : Shape).Idx → EReal :=
  fun i => max (x i + b (ix2 (0 : Fin 1) (i 1))) 0

end Cert.Stages

end
-- ==== Proof.Region0.lean ====
/-
  The first dense stage, proved for the whole array: the node features [200000, 128] times the first weight matrix
  [128, 16].

  The grid has 25 points; point t holds rows 8000·t … 8000·t + 7999 of the features and the whole weight matrix, and
  writes rows 8000·t … 8000·t + 7999 of the result. Row r of what point t writes is the product of row r of its
  features block with the weight matrix, and that block row is row 8000·t + r of the features: so point t writes
  block t of the product of the two whole arrays, and the 25 blocks cover the 200000 rows.
-/
import proofs.«180675_j55284819034805_2_alg».proof.Proof.Gen.KernelIdeal.Frame
import proofs.«180675_j55284819034805_2_alg».proof.Proof.Stages
import Idealize.ShloMosaic.Lib.Pipeline.Value
import Idealize.ShloMosaic.Lib.ValueIdx
import Idealize.ShloMosaic.Lib.ValueLayout

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx
open Cert.Products

variable (V : (c : Dev nD) → (b : Ref sig .tc) → Buf (Elt Ideal) ((c : Thread nD τ).loc b))

/-- The two zero offsets of a whole-block access, as the constant function. -/
theorem zeroOffsets : (![0, 0] : Fin 2 → Nat) = fun _ => 0 := funext fun a => by fin_cases a <;> rfl

/-! ## The body's arithmetic -/

/-- What the body computes from its two blocks is their product: the narrowing of the operands is the identity on
    extended reals, and the matrix unit's product into the zero accumulator is the product. -/
theorem payload_eq (x0 : Vec Ideal S8000x128 .f32) (x1 : Vec Ideal S128x16 .f32) :
    k0_pay1 x0 x1 = matProd x0 x1 := by
  unfold k0_pay1
  exact (matmul_zero_eq dot_S8000x128_S128x16_S8000x16_1_0_0_1_n_n rfl rfl rfl rfl rfl rfl none _ _).trans
    (matProd_narrowed x0 x1 _ _)

/-- An entry of a product of a rows block with the whole right operand: if the block's rows are rows s, s + 1, … of
    A, entry (r, q) of block · B is entry (s + r, q) of A · B. -/
theorem block_entry (A : S200000x128.Idx → EReal) (B : S128x16.Idx → EReal)
    (x0 : S8000x128.Idx → EReal) (x1 : S128x16.Idx → EReal) (j : S8000x16.Idx) (i : S200000x16.Idx) (s : ℕ)
    (hx0 : ∀ (y : S8000x128.Idx) (k : S200000x128.Idx), (k 0).val = s + (y 0).val → (k 1).val = (y 1).val → x0 y = A k)
    (hx1 : ∀ y : S128x16.Idx, x1 y = B y)
    (hi0 : (i 0).val = s + (j 0).val) (hi1 : (i 1).val = (j 1).val) :
    matProd x0 x1 j = matProd A B i := by
  obtain ⟨p, q, rfl⟩ : ∃ (p : Fin 8000) (q : Fin 16), j = ix2 p q := ⟨j 0, j 1, eq_ix2 j⟩
  obtain ⟨P, Q, rfl⟩ : ∃ (P : Fin 200000) (Q : Fin 16), i = ix2 P Q := ⟨i 0, i 1, eq_ix2 i⟩
  obtain rfl : Q = q := Fin.ext hi1
  obtain rfl : x1 = B := funext hx1
  exact matProd_row A x0 x1 P p Q fun k => hx0 (ix2 p k) (ix2 P k) hi0 rfl

/-! ## The blocks of the three windows -/

/-- The block indices over the grid: the features and the result move with the point along the rows, the weight
    matrix stays at its one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features block at point t: its row r is row 8000·t + r of the features. -/
theorem lhs_block (c : Dev nD) (t : Fin cfg0.N) (y : S8000x128.Idx) (k : S200000x128.Idx)
    (h0 : (k 0).val = t.val * 8000 + (y 0).val) (h1 : (k 1).val = (y 1).val) :
    (iblk0 V c 0 t : S8000x128.Idx → EReal) y = (V c main_arg0 : S200000x128.Idx → EReal) k := by
  obtain ⟨e0, e1, -⟩ := index_facts t
  unfold iblk0
  rw [View.read_apply]
  show (V c main_arg0 : S200000x128.Idx → EReal) _ = (V c main_arg0 : S200000x128.Idx → EReal) _
  congr 1
  funext a
  apply Fin.ext
  match a with
  | ⟨0, _⟩ => show win0_0.index t (0 : Fin 2) * 8000 + 1 * (y 0).val = (k 0).val; omega
  | ⟨1, _⟩ => show win0_0.index t (1 : Fin 2) * 128 + 1 * (y 1).val = (k 1).val; omega

/-- The weight block at every point is the whole weight matrix. -/
theorem rhs_block (c : Dev nD) (t : Fin cfg0.N) (y : S128x16.Idx) :
    (iblk0 V c 1 t : S128x16.Idx → EReal) y = (V c main_arg2 : S128x16.Idx → EReal) y := by
  obtain ⟨-, -, e0, e1, -⟩ := index_facts t
  unfold iblk0
  rw [View.read_apply]
  show (V c main_arg2 : S128x16.Idx → EReal) _ = (V c main_arg2 : S128x16.Idx → EReal) _
  congr 1
  funext a
  apply Fin.ext
  match a with
  | ⟨0, _⟩ => show win0_1.index t (0 : Fin 2) * 128 + 1 * (y 0).val = (y 0).val; omega
  | ⟨1, _⟩ => show win0_1.index t (1 : Fin 2) * 16 + 1 * (y 1).val = (y 1).val; omega

/-- What point t writes back is block t of the product of the two whole arrays. -/
theorem flushed_eq (c : Dev nD) (t : Fin cfg0.N) :
    (dat0 (F := Ideal) V c).flushed 2 t
      = ((cfg0.win 2).blk t).view.read (Elt Ideal)
          (matProd (V c main_arg0 : S200000x128.Idx → EReal) (V c main_arg2 : S128x16.Idx → EReal)) := by
  show (cfg0.win 2).cut (grid0.coords t) ((dat0 (F := Ideal) V c).after 2 t) = _
  rw [after0_2]
  unfold out0_2
  rw [View.canon_unit_zero zeroOffsets]
  simp only [View.ld_unit_zero (S := S8000x128) zeroOffsets, View.ld_unit_zero (S := S128x16) zeroOffsets]
  rw [payload_eq]
  obtain ⟨-, -, -, -, e0, e1⟩ := index_facts t
  funext j
  refine block_entry (V c main_arg0) (V c main_arg2) (iblk0 V c 0 t) (iblk0 V c 1 t)
    ((cfg0.win 2).xinj (grid0.coords t) j) (((cfg0.win 2).blk t).view.emb j) (t.val * 8000)
    (fun y k h0 h1 => lhs_block V c t y k h0 h1) (fun y => rhs_block V c t y) ?_ ?_
  · show win0_2.index t (0 : Fin 2) * 8000 + 1 * (j 0).val = t.val * 8000 + (j 0).val
    omega
  · show win0_2.index t (1 : Fin 2) * 16 + 1 * (j 1).val = (j 1).val
    omega

/-! ## The blocks cover the array -/

/-- A row index of the result is in point t's block iff each coordinate is in the block's range on its axis. -/
theorem mem_block (t : Fin cfg0.N) (i : S200000x16.Idx) :
    i ∈ ((cfg0.win 2).blk t).view.set
      ↔ ∀ a : Fin 2, win0_2.index t a * S8000x16.size a ≤ (i a).val
          ∧ (i a).val < win0_2.index t a * S8000x16.size a + S8000x16.size a := by
  show i ∈ ((View.whole main_v32).slice (win0_2.rect t)).set ↔ _
  rw [View.set_slice_whole, Rect.mem_set_unit]
  exact Iff.rfl

/-- Row r of the result is in the block of point r / 8000, and every point writes its block back. -/
theorem cover (i : S200000x16.Idx) :
    ∃ t : Fin cfg0.N, (cfg0.win 2).flush t = true ∧ i ∈ ((cfg0.win 2).blk t).view.set := by
  have hi0 : (i 0).val < 200000 := (i 0).isLt
  have hi1 : (i 1).val < 16 := (i 1).isLt
  have hN : grid0.N = 25 := N_0
  have ht : (i 0).val / 8000 < cfg0.N := by show (i 0).val / 8000 < grid0.N; omega
  obtain ⟨-, -, -, -, e0, e1⟩ := index_facts ⟨(i 0).val / 8000, ht⟩
  refine ⟨⟨(i 0).val / 8000, ht⟩, flush0_2 _, ?_⟩
  rw [mem_block]
  intro a
  match a with
  | ⟨0, _⟩ =>
    show win0_2.index ⟨(i 0).val / 8000, ht⟩ (0 : Fin 2) * 8000 ≤ (i 0).val
      ∧ (i 0).val < win0_2.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win0_2.index ⟨(i 0).val / 8000, ht⟩ (1 : Fin 2) * 16 ≤ (i 1).val
      ∧ (i 1).val < win0_2.index ⟨(i 0).val / 8000, ht⟩ (1 : Fin 2) * 16 + 16
    rw [e1]
    omega

/-! ## The array after the region -/

/-- After the region the result array is the product of the features and the weight matrix as the region found
    them. -/
theorem final (c : Dev nD) :
    (dat0 (F := Ideal) V c).arrAt 2 cfg0.N
      = matProd (V c main_arg0 : S200000x128.Idx → EReal) (V c main_arg2 : S128x16.Idx → EReal) :=
  (dat0 (F := Ideal) V c).arrAt_eq_of_cover 2 _ (fun t _ => flushed_eq V c t) cover

end Cert.KernelIdeal.Region0

end
-- ==== Proof.Region1.lean ====
/-
  The first edge-weighting stage, read off the blocks the grid writes back.

  The stage takes the [6600000, 16] matrix of gathered messages and the [6600000, 1] column of edge weights and
  multiplies every row e of the messages by the e-th weight. The grid has 825 points; point t holds rows
  8000·t … 8000·t + 7999 of both inputs and writes the same rows of the result. Inside one block the column of
  weights is spread along the 16 columns and multiplied entry by entry, so entry (r, q) of the block's result is
  x0 (r, q) · x1 (r, 0). Row r of point t's block is row 8000·t + r of each array, so what point t writes back is
  block t of the whole-array function "row e times weight e"; the 825 blocks tile the rows (row e lies in the block
  of point e / 8000), hence the result array after the last point is that function.
-/
import proofs.«180675_j55284819034805_2_alg».proof.Proof.Gen.KernelIdeal.Frame
import proofs.«180675_j55284819034805_2_alg».proof.Proof.Stages
import Idealize.ShloMosaic.Lib.Pipeline.Value
import Idealize.ShloMosaic.Lib.ValueIdx
import Idealize.ShloMosaic.Lib.ValueLayout

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-- The offsets of a whole-block access are zero on both axes. -/
theorem zeroOffsets : (![0, 0] : Fin 2 → Nat) = fun _ => 0 := funext fun a => by fin_cases a <;> rfl

/-! ## One block: the weights' column spread along the row, times the messages -/

/-- A one-column block spread to sixteen columns reads, at (r, q), the column's entry in row r. -/
theorem spreadColumn_apply (x : S8000x1.Idx → EReal) (h : S8000x1.Broadcasts S8000x16) (r : Fin 8000) (q : Fin 16) :
    broadcastTo S8000x16 x h (ix2 r q) = x (ix2 r (0 : Fin 1)) := by
  refine broadcastTo_apply x h (ix2 r q) (ix2 r (0 : Fin 1)) fun a => ?_
  match a with
  | ⟨0, _⟩ => rfl
  | ⟨1, _⟩ => rfl

/-- The block's result at (r, q): the message entry times the weight of row r. -/
theorem blockProduct_apply (x0 : Vec Ideal S8000x16 .f32) (x1 : Vec Ideal S8000x1 .f32) (r : Fin 8000) (q : Fin 16) :
    k1_pay1 x0 x1 (ix2 r q) = x0 (ix2 r q) * x1 (ix2 r (0 : Fin 1)) := by
  unfold k1_pay1
  rw [mulf_apply, shapeCast_self, shapeCast_self, spreadColumn_apply]

/-! ## The index maps: every window's block index is (t, 0) at point t -/

theorem blockIndex : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-! ## What point t writes back: block t of "row e times weight e" -/

theorem flushed_eq (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal)
          (Cert.Stages.scaleRows (V c main_v39 : S6600000x16.Idx → EReal) (V c main_v31 : S6600000x1.Idx → EReal)) := by
  show (cfg1.win 2).cut (grid1.coords t) ((dat1 (F := Ideal) V c).after 2 t) = _
  rw [after1_2]
  unfold out1_2
  rw [View.canon_unit_zero zeroOffsets]
  simp only [View.ld_unit_zero (S := S8000x16) zeroOffsets, View.ld_unit_zero (S := S8000x1) zeroOffsets]
  obtain ⟨e0, e1, e2, e3, e4, e5⟩ := blockIndex t
  funext j
  have hj0 : (j 0).val < 8000 := (j 0).isLt
  have hj1 : (j 1).val < 16 := (j 1).isLt
  have h0 : ((cfg1.win 0).blk t).view.emb (ix2 (j 0 : Fin 8000) (j 1 : Fin 16)) = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb (ix2 (j 0 : Fin 8000) (0 : Fin 1))
      = ix2 ((((cfg1.win 2).blk t).view.emb j) 0 : Fin 6600000) (0 : Fin 1) := by
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 1 + 1 * 0 = 0; omega
  exact ((congrArg (k1_pay1 (iblk1 V c 0 t) (iblk1 V c 1 t)) (eq_ix2 (j : S8000x16.Idx))).trans
    (blockProduct_apply (iblk1 V c 0 t) (iblk1 V c 1 t) (j 0) (j 1))).trans
    (congrArg₂ (fun x y : EReal => x * y) (congrArg (V c main_v39 : S6600000x16.Idx → EReal) h0)
      (congrArg (V c main_v31 : S6600000x1.Idx → EReal) h1))

/-! ## The blocks tile the rows -/

/-- An index of the result array is in point t's block iff each coordinate is in the block's range on its axis. -/
theorem mem_block (t : Fin cfg1.N) (i : S6600000x16.Idx) :
    i ∈ ((cfg1.win 2).blk t).view.set ↔ ∀ a : Fin 2, win1_2.index t a * S8000x16.size a ≤ (i a).val
      ∧ (i a).val < win1_2.index t a * S8000x16.size a + S8000x16.size a := by
  show i ∈ ((View.whole main_v40).slice (win1_2.rect t)).set ↔ _
  rw [View.set_slice_whole, Rect.mem_set_unit]
  exact Iff.rfl

/-- Row e of the result lies in the block of point e / 8000, and every point writes its block back. -/
theorem rows_covered (i : S6600000x16.Idx) :
    ∃ t : Fin cfg1.N, (cfg1.win 2).flush t = true ∧ i ∈ ((cfg1.win 2).blk t).view.set := by
  have hi0 : (i 0).val < 6600000 := (i 0).isLt
  have hi1 : (i 1).val < 16 := (i 1).isLt
  have hN : grid1.N = 825 := N_1
  have ht : (i 0).val / 8000 < grid1.N := by rw [hN]; omega
  obtain ⟨-, -, -, -, e4, e5⟩ := blockIndex ⟨(i 0).val / 8000, ht⟩
  refine ⟨⟨(i 0).val / 8000, ht⟩, flush1_2 _, ?_⟩
  rw [mem_block]
  intro a
  match a with
  | ⟨0, _⟩ =>
    show win1_2.index ⟨(i 0).val / 8000, ht⟩ (0 : Fin 2) * 8000 ≤ (i 0).val
      ∧ (i 0).val < win1_2.index ⟨(i 0).val / 8000, ht⟩ (0 : Fin 2) * 8000 + 8000
    rw [e4]
    show (i 0).val / 8000 * 8000 ≤ (i 0).val ∧ (i 0).val < (i 0).val / 8000 * 8000 + 8000
    omega
  | ⟨1, _⟩ =>
    show win1_2.index ⟨(i 0).val / 8000, ht⟩ (1 : Fin 2) * 16 ≤ (i 1).val
      ∧ (i 1).val < win1_2.index ⟨(i 0).val / 8000, ht⟩ (1 : Fin 2) * 16 + 16
    rw [e5]
    omega

/-! ## The result array after the last point -/

theorem final (V : (c : Dev nD) → (b : Ref sig .tc) → Buf (Elt Ideal) ((c : Thread nD τ).loc b)) (c : Dev nD) :
    (dat1 (F := Ideal) V c).arrAt 2 cfg1.N
      = Cert.Stages.scaleRows (V c main_v39 : S6600000x16.Idx → EReal) (V c main_v31 : S6600000x1.Idx → EReal) :=
  (dat1 (F := Ideal) V c).arrAt_eq_of_cover 2 _ (fun t _ => flushed_eq V c t) rows_covered

end Cert.KernelIdeal.Region1

end
-- ==== Proof.Region2.lean ====
/-
  The first layer's bias and rectifier, read off the blocks the grid writes back.

  The stage takes the [200000, 16] aggregate and the one-row [1, 16] bias, adds the bias row to every row of the
  aggregate and applies the rectifier max(·, 0). The grid has 25 points; point t holds rows 8000·t … 8000·t + 7999
  of the aggregate, the whole bias row, and writes the same rows of the result. Inside one block the bias row is
  spread down the 8000 rows, added entry by entry, and compared with a block of zeros, so entry (r, q) of the
  block's result is max (x0 (r, q) + x1 (0, q)) 0. Row r of point t's block is row 8000·t + r of the aggregate, so
  what point t writes back is block t of the whole-array function "row plus bias, rectified"; the 25 blocks tile the
  rows (row p lies in the block of point p / 8000), hence the result array after the last point is that function.
-/
import proofs.«180675_j55284819034805_2_alg».proof.Proof.Gen.KernelIdeal.Frame
import proofs.«180675_j55284819034805_2_alg».proof.Proof.Stages
import Idealize.ShloMosaic.Lib.Pipeline.Value
import Idealize.ShloMosaic.Lib.ValueIdx
import Idealize.ShloMosaic.Lib.ValueLayout

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

/-- The offsets of a whole-block access are zero on both axes. -/
theorem zeroOffsets : (![0, 0] : Fin 2 → Nat) = fun _ => 0 := funext fun a => by fin_cases a <;> rfl

/-! ## One block: the bias row spread down the rows, added, rectified -/

/-- The block's result at (r, q): the aggregate's entry plus the bias of column q, or zero if that is larger. -/
theorem blockBiasRelu_apply (x0 : Vec Ideal S8000x16 .f32) (x1 : Vec Ideal S1x16 .f32) (r : Fin 8000) (q : Fin 16) :
    k2_pay1 x0 x1 (ix2 r q) = max (x0 (ix2 r q) + x1 (ix2 (0 : Fin 1) q)) 0 := by
  unfold k2_pay1
  rw [maximumf_apply, addf_apply, shapeCast_self, shapeCast_self, broadcastTo_1b_ab_apply, broadcast_apply,
    Ideal.ofBits_def, Ideal.ofBits_zero_f32]

/-! ## The index maps: the aggregate's and the result's block index is (t, 0) at point t, the bias row's (0, 0) -/

theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-! ## What point t writes back: block t of "row plus bias, rectified" -/

theorem flushed_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal)
          (Cert.Stages.biasRelu (V c main_v43 : S200000x16.Idx → EReal) (V c main_v44 : S1x16.Idx → EReal)) := by
  show (cfg2.win 2).cut (grid2.coords t) ((dat2 (F := Ideal) V c).after 2 t) = _
  rw [after2_2]
  unfold out2_2
  rw [View.canon_unit_zero zeroOffsets]
  simp only [View.ld_unit_zero (S := S8000x16) zeroOffsets, View.ld_unit_zero (S := S1x16) zeroOffsets]
  obtain ⟨e0, e1, e2, e3, e4, e5⟩ := blockIndex t
  funext j
  have hj0 : (j 0).val < 8000 := (j 0).isLt
  have hj1 : (j 1).val < 16 := (j 1).isLt
  have h0 : ((cfg2.win 0).blk t).view.emb (ix2 (j 0 : Fin 8000) (j 1 : Fin 16)) = ((cfg2.win 2).blk t).view.emb j := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 16 + 1 * (j 1).val = win2_2.index t (1 : Fin 2) * 16 + 1 * (j 1).val; omega
  have h1 : ((cfg2.win 1).blk t).view.emb (ix2 (0 : Fin 1) (j 1 : Fin 16))
      = ix2 (0 : Fin 1) ((((cfg2.win 2).blk t).view.emb j) 1 : Fin 16) := by
    funext a; apply Fin.ext
    match a with
    | ⟨0, _⟩ => show win2_1.index t (0 : Fin 2) * 1 + 1 * 0 = 0; omega
    | ⟨1, _⟩ => show win2_1.index t (1 : Fin 2) * 16 + 1 * (j 1).val = win2_2.index t (1 : Fin 2) * 16 + 1 * (j 1).val; omega
  exact ((congrArg (k2_pay1 (iblk2 V c 0 t) (iblk2 V c 1 t)) (eq_ix2 (j : S8000x16.Idx))).trans
    (blockBiasRelu_apply (iblk2 V c 0 t) (iblk2 V c 1 t) (j 0) (j 1))).trans
    (congrArg₂ (fun x y : EReal => max (x + y) 0) (congrArg (V c main_v43 : S200000x16.Idx → EReal) h0)
      (congrArg (V c main_v44 : S1x16.Idx → EReal) h1))

/-! ## The blocks tile the rows -/

/-- An index of the result array is in point t's block iff each coordinate is in the block's range on its axis. -/
theorem mem_block (t : Fin cfg2.N) (i : S200000x16.Idx) :
    i ∈ ((cfg2.win 2).blk t).view.set ↔ ∀ a : Fin 2, win2_2.index t a * S8000x16.size a ≤ (i a).val
      ∧ (i a).val < win2_2.index t a * S8000x16.size a + S8000x16.size a := by
  show i ∈ ((View.whole main_v45).slice (win2_2.rect t)).set ↔ _
  rw [View.set_slice_whole, Rect.mem_set_unit]
  exact Iff.rfl

/-- Row p of the result lies in the block of point p / 8000, and every point writes its block back. -/
theorem rows_covered (i : S200000x16.Idx) :
    ∃ t : Fin cfg2.N, (cfg2.win 2).flush t = true ∧ i ∈ ((cfg2.win 2).blk t).view.set := by
  have hi0 : (i 0).val < 200000 := (i 0).isLt
  have hi1 : (i 1).val < 16 := (i 1).isLt
  have hN : grid2.N = 25 := N_2
  have ht : (i 0).val / 8000 < grid2.N := by rw [hN]; omega
  obtain ⟨-, -, -, -, e4, e5⟩ := blockIndex ⟨(i 0).val / 8000, ht⟩
  refine ⟨⟨(i 0).val / 8000, ht⟩, flush2_2 _, ?_⟩
  rw [mem_block]
  intro a
  match a with
  | ⟨0, _⟩ =>
    show win2_2.index ⟨(i 0).val / 8000, ht⟩ (0 : Fin 2) * 8000 ≤ (i 0).val
      ∧ (i 0).val < win2_2.index ⟨(i 0).val / 8000, ht⟩ (0 : Fin 2) * 8000 + 8000
    rw [e4]
    show (i 0).val / 8000 * 8000 ≤ (i 0).val ∧ (i 0).val < (i 0).val / 8000 * 8000 + 8000
    omega
  | ⟨1, _⟩ =>
    show win2_2.index ⟨(i 0).val / 8000, ht⟩ (1 : Fin 2) * 16 ≤ (i 1).val
      ∧ (i 1).val < win2_2.index ⟨(i 0).val / 8000, ht⟩ (1 : Fin 2) * 16 + 16
    rw [e5]
    omega

/-! ## The result array after the last point -/

theorem final (V : (c : Dev nD) → (b : Ref sig .tc) → Buf (Elt Ideal) ((c : Thread nD τ).loc b)) (c : Dev nD) :
    (dat2 (F := Ideal) V c).arrAt 2 cfg2.N
      = Cert.Stages.biasRelu (V c main_v43 : S200000x16.Idx → EReal) (V c main_v44 : S1x16.Idx → EReal) :=
  (dat2 (F := Ideal) V c).arrAt_eq_of_cover 2 _ (fun t _ => flushed_eq V c t) rows_covered

end Cert.KernelIdeal.Region2

end
-- ==== Proof.Region3.lean ====
/-
  The second layer's dense stage, proved for the whole array: the hidden features [200000, 16] times the second weight
  matrix [16, 1].

  The grid has 25 points; point t holds rows 8000·t … 8000·t + 7999 of the hidden features and the whole weight matrix,
  and writes rows 8000·t … 8000·t + 7999 of the result. Row r of what point t writes is the product of row r of its
  features block with the weight matrix, and that block row is row 8000·t + r of the features: so point t writes
  block t of the product of the two whole arrays, and the 25 blocks cover the 200000 rows.
-/
import proofs.«180675_j55284819034805_2_alg».proof.Proof.Gen.KernelIdeal.Frame
import proofs.«180675_j55284819034805_2_alg».proof.Proof.Stages
import Idealize.ShloMosaic.Lib.Pipeline.Value
import Idealize.ShloMosaic.Lib.ValueIdx
import Idealize.ShloMosaic.Lib.ValueLayout

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx
open Cert.Products

variable (V : (c : Dev nD) → (b : Ref sig .tc) → Buf (Elt Ideal) ((c : Thread nD τ).loc b))

/-- The two zero offsets of a whole-block access, as the constant function. -/
theorem zeroOffsets : (![0, 0] : Fin 2 → Nat) = fun _ => 0 := funext fun a => by fin_cases a <;> rfl

/-! ## The body's arithmetic -/

/-- What the body computes from its two blocks is their product: the reshape of the first block to its own shape and
    the narrowing of the operands are the identity on extended reals, and the matrix unit's product into the zero
    accumulator is the product. -/
theorem payload_eq (x0 : Vec Ideal S8000x16 .f32) (x1 : Vec Ideal S16x1 .f32) :
    k3_pay1 x0 x1 = matProd x0 x1 := by
  unfold k3_pay1
  refine (matmul_zero_eq dot_S8000x16_S16x1_S8000x1_1_0_0_1_n_n rfl rfl rfl rfl rfl rfl none _ _).trans ?_
  rw [shapeCast_self]
  exact matProd_narrowed x0 x1 _ _

/-- An entry of a product of a rows block with the whole right operand: if the block's rows are rows s, s + 1, … of
    A, entry (r, q) of block · B is entry (s + r, q) of A · B. -/
theorem block_entry (A : S200000x16.Idx → EReal) (B : S16x1.Idx → EReal)
    (x0 : S8000x16.Idx → EReal) (x1 : S16x1.Idx → EReal) (j : S8000x1.Idx) (i : S200000x1.Idx) (s : ℕ)
    (hx0 : ∀ (y : S8000x16.Idx) (k : S200000x16.Idx), (k 0).val = s + (y 0).val → (k 1).val = (y 1).val → x0 y = A k)
    (hx1 : ∀ y : S16x1.Idx, x1 y = B y)
    (hi0 : (i 0).val = s + (j 0).val) (hi1 : (i 1).val = (j 1).val) :
    matProd x0 x1 j = matProd A B i := by
  obtain ⟨p, q, rfl⟩ : ∃ (p : Fin 8000) (q : Fin 1), j = ix2 p q := ⟨j 0, j 1, eq_ix2 j⟩
  obtain ⟨P, Q, rfl⟩ : ∃ (P : Fin 200000) (Q : Fin 1), i = ix2 P Q := ⟨i 0, i 1, eq_ix2 i⟩
  obtain rfl : Q = q := Fin.ext hi1
  obtain rfl : x1 = B := funext hx1
  exact matProd_row A x0 x1 P p Q fun k => hx0 (ix2 p k) (ix2 P k) hi0 rfl

/-! ## The blocks of the three windows -/

/-- The block indices over the grid: the features and the result move with the point along the rows, the weight
    matrix stays at its one block. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The features block at point t: its row r is row 8000·t + r of the features. -/
theorem lhs_block (c : Dev nD) (t : Fin cfg3.N) (y : S8000x16.Idx) (k : S200000x16.Idx)
    (h0 : (k 0).val = t.val * 8000 + (y 0).val) (h1 : (k 1).val = (y 1).val) :
    (iblk3 V c 0 t : S8000x16.Idx → EReal) y = (V c main_v45 : S200000x16.Idx → EReal) k := by
  obtain ⟨e0, e1, -⟩ := index_facts t
  unfold iblk3
  rw [View.read_apply]
  show (V c main_v45 : S200000x16.Idx → EReal) _ = (V c main_v45 : S200000x16.Idx → EReal) _
  congr 1
  funext a
  apply Fin.ext
  match a with
  | ⟨0, _⟩ => show win3_0.index t (0 : Fin 2) * 8000 + 1 * (y 0).val = (k 0).val; omega
  | ⟨1, _⟩ => show win3_0.index t (1 : Fin 2) * 16 + 1 * (y 1).val = (k 1).val; omega

/-- The weight block at every point is the whole weight matrix. -/
theorem rhs_block (c : Dev nD) (t : Fin cfg3.N) (y : S16x1.Idx) :
    (iblk3 V c 1 t : S16x1.Idx → EReal) y = (V c main_arg4 : S16x1.Idx → EReal) y := by
  obtain ⟨-, -, e0, e1, -⟩ := index_facts t
  unfold iblk3
  rw [View.read_apply]
  show (V c main_arg4 : S16x1.Idx → EReal) _ = (V c main_arg4 : S16x1.Idx → EReal) _
  congr 1
  funext a
  apply Fin.ext
  match a with
  | ⟨0, _⟩ => show win3_1.index t (0 : Fin 2) * 16 + 1 * (y 0).val = (y 0).val; omega
  | ⟨1, _⟩ => show win3_1.index t (1 : Fin 2) * 1 + 1 * (y 1).val = (y 1).val; omega

/-- What point t writes back is block t of the product of the two whole arrays. -/
theorem flushed_eq (c : Dev nD) (t : Fin cfg3.N) :
    (dat3 (F := Ideal) V c).flushed 2 t
      = ((cfg3.win 2).blk t).view.read (Elt Ideal)
          (matProd (V c main_v45 : S200000x16.Idx → EReal) (V c main_arg4 : S16x1.Idx → EReal)) := by
  show (cfg3.win 2).cut (grid3.coords t) ((dat3 (F := Ideal) V c).after 2 t) = _
  rw [after3_2]
  unfold out3_2
  rw [View.canon_unit_zero zeroOffsets]
  simp only [View.ld_unit_zero (S := S8000x16) zeroOffsets, View.ld_unit_zero (S := S16x1) zeroOffsets]
  rw [payload_eq]
  obtain ⟨-, -, -, -, e0, e1⟩ := index_facts t
  funext j
  refine block_entry (V c main_v45) (V c main_arg4) (iblk3 V c 0 t) (iblk3 V c 1 t)
    ((cfg3.win 2).xinj (grid3.coords t) j) (((cfg3.win 2).blk t).view.emb j) (t.val * 8000)
    (fun y k h0 h1 => lhs_block V c t y k h0 h1) (fun y => rhs_block V c t y) ?_ ?_
  · show win3_2.index t (0 : Fin 2) * 8000 + 1 * (j 0).val = t.val * 8000 + (j 0).val
    omega
  · show win3_2.index t (1 : Fin 2) * 1 + 1 * (j 1).val = (j 1).val
    omega

/-! ## The blocks cover the array -/

/-- A row index of the result is in point t's block iff each coordinate is in the block's range on its axis. -/
theorem mem_block (t : Fin cfg3.N) (i : S200000x1.Idx) :
    i ∈ ((cfg3.win 2).blk t).view.set
      ↔ ∀ a : Fin 2, win3_2.index t a * S8000x1.size a ≤ (i a).val
          ∧ (i a).val < win3_2.index t a * S8000x1.size a + S8000x1.size a := by
  show i ∈ ((View.whole main_v46).slice (win3_2.rect t)).set ↔ _
  rw [View.set_slice_whole, Rect.mem_set_unit]
  exact Iff.rfl

/-- Row r of the result is in the block of point r / 8000, and every point writes its block back. -/
theorem cover (i : S200000x1.Idx) :
    ∃ t : Fin cfg3.N, (cfg3.win 2).flush t = true ∧ i ∈ ((cfg3.win 2).blk t).view.set := by
  have hi0 : (i 0).val < 200000 := (i 0).isLt
  have hi1 : (i 1).val < 1 := (i 1).isLt
  have hN : grid3.N = 25 := N_3
  have ht : (i 0).val / 8000 < cfg3.N := by show (i 0).val / 8000 < grid3.N; omega
  obtain ⟨-, -, -, -, e0, e1⟩ := index_facts ⟨(i 0).val / 8000, ht⟩
  refine ⟨⟨(i 0).val / 8000, ht⟩, flush3_2 _, ?_⟩
  rw [mem_block]
  intro a
  match a with
  | ⟨0, _⟩ =>
    show win3_2.index ⟨(i 0).val / 8000, ht⟩ (0 : Fin 2) * 8000 ≤ (i 0).val
      ∧ (i 0).val < win3_2.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win3_2.index ⟨(i 0).val / 8000, ht⟩ (1 : Fin 2) * 1 ≤ (i 1).val
      ∧ (i 1).val < win3_2.index ⟨(i 0).val / 8000, ht⟩ (1 : Fin 2) * 1 + 1
    rw [e1]
    omega

/-! ## The array after the region -/

/-- After the region the result array is the product of the features and the weight matrix as the region found
    them. -/
theorem final (c : Dev nD) :
    (dat3 (F := Ideal) V c).arrAt 2 cfg3.N
      = matProd (V c main_v45 : S200000x16.Idx → EReal) (V c main_arg4 : S16x1.Idx → EReal) :=
  (dat3 (F := Ideal) V c).arrAt_eq_of_cover 2 _ (fun t _ => flushed_eq V c t) cover

end Cert.KernelIdeal.Region3

end
-- ==== Proof.Region4.lean ====
/-
  The second edge-weighting stage, read off the blocks the grid writes back.

  The stage takes the [6600000, 1] column of gathered scalar messages and the [6600000, 1] column of edge weights
  and multiplies entry e of the first by entry e of the second. The grid has 825 points; point t holds rows
  8000·t … 8000·t + 7999 of both columns and writes the same rows of the result; inside a block the two columns
  are multiplied entry by entry. Row r of point t's block is row 8000·t + r of each array, so what point t writes
  back is block t of the whole-array function "row e times weight e" (here a row has one entry); the 825 blocks tile
  the rows (row e lies in the block of point e / 8000), hence the result array after the last point is that function.
-/
import proofs.«180675_j55284819034805_2_alg».proof.Proof.Gen.KernelIdeal.Frame
import proofs.«180675_j55284819034805_2_alg».proof.Proof.Stages
import Idealize.ShloMosaic.Lib.Pipeline.Value
import Idealize.ShloMosaic.Lib.ValueIdx
import Idealize.ShloMosaic.Lib.ValueLayout

noncomputable section

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx

/-- The offsets of a whole-block access are zero on both axes. -/
theorem zeroOffsets : (![0, 0] : Fin 2 → Nat) = fun _ => 0 := funext fun a => by fin_cases a <;> rfl

/-! ## One block: the two columns multiplied entry by entry -/

/-- The block's result at (r, q): the message entry times the weight entry at the same place. -/
theorem blockProduct_apply (x0 : Vec Ideal S8000x1 .f32) (x1 : Vec Ideal S8000x1 .f32) (r : Fin 8000) (q : Fin 1) :
    k4_pay1 x0 x1 (ix2 r q) = x0 (ix2 r q) * x1 (ix2 r q) := by
  unfold k4_pay1
  rw [mulf_apply, shapeCast_self, shapeCast_self]

/-! ## The index maps: every window's block index is (t, 0) at point t -/

theorem blockIndex : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-! ## What point t writes back: block t of "row e times weight e" -/

theorem flushed_eq (V : (c : Dev nD) → (b : Ref sig .tc) → Buf (Elt Ideal) ((c : Thread nD τ).loc b)) (c : Dev nD)
    (t : Fin cfg4.N) :
    (dat4 (F := Ideal) V c).flushed 2 t
      = ((cfg4.win 2).blk t).view.read (Elt Ideal)
          (Cert.Stages.scaleRows (V c main_v53 : S6600000x1.Idx → EReal) (V c main_v31 : S6600000x1.Idx → EReal)) := by
  show (cfg4.win 2).cut (grid4.coords t) ((dat4 (F := Ideal) V c).after 2 t) = _
  rw [after4_2]
  unfold out4_2
  rw [View.canon_unit_zero zeroOffsets]
  simp only [View.ld_unit_zero (S := S8000x1) zeroOffsets]
  obtain ⟨e0, e1, e2, e3, e4, e5⟩ := blockIndex t
  funext j
  have hj0 : (j 0).val < 8000 := (j 0).isLt
  have hj1 : (j 1).val < 1 := (j 1).isLt
  have h0 : ((cfg4.win 0).blk t).view.emb (ix2 (j 0 : Fin 8000) (j 1 : Fin 1)) = ((cfg4.win 2).blk t).view.emb j := by
    funext a; apply Fin.ext
    match a with
    | ⟨0, _⟩ => show win4_0.index t (0 : Fin 2) * 8000 + 1 * (j 0).val = win4_2.index t (0 : Fin 2) * 8000 + 1 * (j 0).val; omega
    | ⟨1, _⟩ => show win4_0.index t (1 : Fin 2) * 1 + 1 * (j 1).val = win4_2.index t (1 : Fin 2) * 1 + 1 * (j 1).val; omega
  have h1 : ((cfg4.win 1).blk t).view.emb (ix2 (j 0 : Fin 8000) (j 1 : Fin 1))
      = ix2 ((((cfg4.win 2).blk t).view.emb j) 0 : Fin 6600000) (0 : Fin 1) := by
    funext a; apply Fin.ext
    match a with
    | ⟨0, _⟩ => show win4_1.index t (0 : Fin 2) * 8000 + 1 * (j 0).val = win4_2.index t (0 : Fin 2) * 8000 + 1 * (j 0).val; omega
    | ⟨1, _⟩ => show win4_1.index t (1 : Fin 2) * 1 + 1 * (j 1).val = 0; omega
  exact ((congrArg (k4_pay1 (iblk4 V c 0 t) (iblk4 V c 1 t)) (eq_ix2 (j : S8000x1.Idx))).trans
    (blockProduct_apply (iblk4 V c 0 t) (iblk4 V c 1 t) (j 0) (j 1))).trans
    (congrArg₂ (fun x y : EReal => x * y) (congrArg (V c main_v53 : S6600000x1.Idx → EReal) h0)
      (congrArg (V c main_v31 : S6600000x1.Idx → EReal) h1))

/-! ## The blocks tile the rows -/

/-- An index of the result array is in point t's block iff each coordinate is in the block's range on its axis. -/
theorem mem_block (t : Fin cfg4.N) (i : S6600000x1.Idx) :
    i ∈ ((cfg4.win 2).blk t).view.set ↔ ∀ a : Fin 2, win4_2.index t a * S8000x1.size a ≤ (i a).val
      ∧ (i a).val < win4_2.index t a * S8000x1.size a + S8000x1.size a := by
  show i ∈ ((View.whole main_v54).slice (win4_2.rect t)).set ↔ _
  rw [View.set_slice_whole, Rect.mem_set_unit]
  exact Iff.rfl

/-- Row e of the result lies in the block of point e / 8000, and every point writes its block back. -/
theorem rows_covered (i : S6600000x1.Idx) :
    ∃ t : Fin cfg4.N, (cfg4.win 2).flush t = true ∧ i ∈ ((cfg4.win 2).blk t).view.set := by
  have hi0 : (i 0).val < 6600000 := (i 0).isLt
  have hi1 : (i 1).val < 1 := (i 1).isLt
  have hN : grid4.N = 825 := N_4
  have ht : (i 0).val / 8000 < grid4.N := by rw [hN]; omega
  obtain ⟨-, -, -, -, e4, e5⟩ := blockIndex ⟨(i 0).val / 8000, ht⟩
  refine ⟨⟨(i 0).val / 8000, ht⟩, flush4_2 _, ?_⟩
  rw [mem_block]
  intro a
  match a with
  | ⟨0, _⟩ =>
    show win4_2.index ⟨(i 0).val / 8000, ht⟩ (0 : Fin 2) * 8000 ≤ (i 0).val
      ∧ (i 0).val < win4_2.index ⟨(i 0).val / 8000, ht⟩ (0 : Fin 2) * 8000 + 8000
    rw [e4]
    show (i 0).val / 8000 * 8000 ≤ (i 0).val ∧ (i 0).val < (i 0).val / 8000 * 8000 + 8000
    omega
  | ⟨1, _⟩ =>
    show win4_2.index ⟨(i 0).val / 8000, ht⟩ (1 : Fin 2) * 1 ≤ (i 1).val
      ∧ (i 1).val < win4_2.index ⟨(i 0).val / 8000, ht⟩ (1 : Fin 2) * 1 + 1
    rw [e5]
    omega

/-! ## The result array after the last point -/

theorem final (V : (c : Dev nD) → (b : Ref sig .tc) → Buf (Elt Ideal) ((c : Thread nD τ).loc b)) (c : Dev nD) :
    (dat4 (F := Ideal) V c).arrAt 2 cfg4.N
      = Cert.Stages.scaleRows (V c main_v53 : S6600000x1.Idx → EReal) (V c main_v31 : S6600000x1.Idx → EReal) :=
  (dat4 (F := Ideal) V c).arrAt_eq_of_cover 2 _ (fun t _ => flushed_eq V c t) rows_covered

end Cert.KernelIdeal.Region4

end
-- ==== Proof.Region5.lean ====
/-
  The last stage, proved for the whole array: the one-entry bias [1, 1] added to every row of the aggregate
  [200000, 1].

  The grid has 25 points; point t holds rows 8000·t … 8000·t + 7999 of the aggregate and the whole bias, and writes
  rows 8000·t … 8000·t + 7999 of the result. Entry (r, f) of what point t writes is entry (r, f) of its aggregate
  block plus the bias entry (0, f), and that block entry is entry (8000·t + r, f) of the aggregate: so point t writes
  block t of the biased aggregate, and the 25 blocks cover the 200000 rows.
-/
import proofs.«180675_j55284819034805_2_alg».proof.Proof.Gen.KernelIdeal.Frame
import proofs.«180675_j55284819034805_2_alg».proof.Proof.Stages
import Idealize.ShloMosaic.Lib.Pipeline.Value
import Idealize.ShloMosaic.Lib.ValueIdx
import Idealize.ShloMosaic.Lib.ValueLayout

noncomputable section

namespace Cert.KernelIdeal.Region5

open Cert.KernelIdeal Cert.KernelIdeal.Gen Idealize.ShloMosaic Idealize.ShloMosaic.TcCoe Idealize.SL.Sem
open Idealize.ShloMosaic.Pipeline (Dat)
open Idealize.ShloMosaic.ValueIdx
open Cert.Stages

variable (V : (c : Dev nD) → (b : Ref sig .tc) → Buf (Elt Ideal) ((c : Thread nD τ).loc b))

/-- The two zero offsets of a whole-block access, as the constant function. -/
theorem zeroOffsets : (![0, 0] : Fin 2 → Nat) = fun _ => 0 := funext fun a => by fin_cases a <;> rfl

/-! ## The body's arithmetic -/

/-- What the body computes from its two blocks, entry by entry: the reshapes of the blocks to their own shapes are the
    identity, the bias is repeated down the rows, and the sum is the extended reals'. -/
theorem payload_apply (x0 : Vec Ideal S8000x1 .f32) (x1 : Vec Ideal S1x1 .f32) (p : Fin 8000) (q : Fin 1) :
    k5_pay1 x0 x1 (ix2 p q) = x0 (ix2 p q) + x1 (ix2 (0 : Fin 1) q) := by
  show (shapeCast S8000x1 x0 shapeCasts_S8000x1_S8000x1 (ix2 p q) : EReal)
      + broadcastTo S8000x1 (shapeCast S1x1 x1 shapeCasts_S1x1_S1x1) broadcasts_S1x1_S8000x1 (ix2 p q) = _
  rw [shapeCast_self, shapeCast_self, broadcastTo_1b_ab_apply]

/-- The body's result on a rows block whose rows are rows s, s + 1, … of x, with the whole bias b: entry (r, f) is
    entry (s + r, f) of the biased x. -/
theorem block_entry (x : S200000x1.Idx → EReal) (b : S1x1.Idx → EReal)
    (x0 : S8000x1.Idx → EReal) (x1 : S1x1.Idx → EReal) (j : S8000x1.Idx) (i : S200000x1.Idx)
    (hx0 : x0 j = x i) (hx1 : ∀ y : S1x1.Idx, x1 y = b y) (hi1 : (i 1).val = (j 1).val) :
    k5_pay1 (F := Ideal) x0 x1 j = biasRows x b i := by
  obtain ⟨p, q, rfl⟩ : ∃ (p : Fin 8000) (q : Fin 1), j = ix2 p q := ⟨j 0, j 1, eq_ix2 j⟩
  obtain ⟨P, Q, rfl⟩ : ∃ (P : Fin 200000) (Q : Fin 1), i = ix2 P Q := ⟨i 0, i 1, eq_ix2 i⟩
  obtain rfl : Q = q := Fin.ext hi1
  rw [payload_apply, hx0, hx1]
  rfl

/-! ## The blocks of the three windows -/

/-- The block indices over the grid: the aggregate and the result move with the point along the rows, the bias stays
    at its one block. -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The aggregate block at point t: its row r is row 8000·t + r of the aggregate. -/
theorem lhs_block (c : Dev nD) (t : Fin cfg5.N) (y : S8000x1.Idx) (k : S200000x1.Idx)
    (h0 : (k 0).val = t.val * 8000 + (y 0).val) (h1 : (k 1).val = (y 1).val) :
    (iblk5 V c 0 t : S8000x1.Idx → EReal) y = (V c main_v57 : S200000x1.Idx → EReal) k := by
  obtain ⟨e0, e1, -⟩ := index_facts t
  unfold iblk5
  rw [View.read_apply]
  show (V c main_v57 : S200000x1.Idx → EReal) _ = (V c main_v57 : S200000x1.Idx → EReal) _
  congr 1
  funext a
  apply Fin.ext
  match a with
  | ⟨0, _⟩ => show win5_0.index t (0 : Fin 2) * 8000 + 1 * (y 0).val = (k 0).val; omega
  | ⟨1, _⟩ => show win5_0.index t (1 : Fin 2) * 1 + 1 * (y 1).val = (k 1).val; omega

/-- The bias block at every point is the whole bias. -/
theorem rhs_block (c : Dev nD) (t : Fin cfg5.N) (y : S1x1.Idx) :
    (iblk5 V c 1 t : S1x1.Idx → EReal) y = (V c main_v58 : S1x1.Idx → EReal) y := by
  obtain ⟨-, -, e0, e1, -⟩ := index_facts t
  unfold iblk5
  rw [View.read_apply]
  show (V c main_v58 : S1x1.Idx → EReal) _ = (V c main_v58 : S1x1.Idx → EReal) _
  congr 1
  funext a
  apply Fin.ext
  match a with
  | ⟨0, _⟩ => show win5_1.index t (0 : Fin 2) * 1 + 1 * (y 0).val = (y 0).val; omega
  | ⟨1, _⟩ => show win5_1.index t (1 : Fin 2) * 1 + 1 * (y 1).val = (y 1).val; omega

/-- What point t writes back is block t of the biased aggregate. -/
theorem flushed_eq (c : Dev nD) (t : Fin cfg5.N) :
    (dat5 (F := Ideal) V c).flushed 2 t
      = ((cfg5.win 2).blk t).view.read (Elt Ideal)
          (biasRows (V c main_v57 : S200000x1.Idx → EReal) (V c main_v58 : S1x1.Idx → EReal)) := by
  show (cfg5.win 2).cut (grid5.coords t) ((dat5 (F := Ideal) V c).after 2 t) = _
  rw [after5_2]
  unfold out5_2
  rw [View.canon_unit_zero zeroOffsets]
  simp only [View.ld_unit_zero (S := S8000x1) zeroOffsets, View.ld_unit_zero (S := S1x1) zeroOffsets]
  obtain ⟨-, -, -, -, e0, e1⟩ := index_facts t
  funext j
  refine block_entry (V c main_v57) (V c main_v58) (iblk5 V c 0 t) (iblk5 V c 1 t)
    ((cfg5.win 2).xinj (grid5.coords t) j) (((cfg5.win 2).blk t).view.emb j)
    (lhs_block V c t _ _ ?_ ?_) (fun y => rhs_block V c t y) ?_
  · show win5_2.index t (0 : Fin 2) * 8000 + 1 * (j 0).val = t.val * 8000 + (j 0).val
    omega
  · show win5_2.index t (1 : Fin 2) * 1 + 1 * (j 1).val = (j 1).val
    omega
  · show win5_2.index t (1 : Fin 2) * 1 + 1 * (j 1).val = (j 1).val
    omega

/-! ## The blocks cover the array -/

/-- An index of the result is in point t's block iff each coordinate is in the block's range on its axis. -/
theorem mem_block (t : Fin cfg5.N) (i : S200000x1.Idx) :
    i ∈ ((cfg5.win 2).blk t).view.set
      ↔ ∀ a : Fin 2, win5_2.index t a * S8000x1.size a ≤ (i a).val
          ∧ (i a).val < win5_2.index t a * S8000x1.size a + S8000x1.size a := by
  show i ∈ ((View.whole main_v59).slice (win5_2.rect t)).set ↔ _
  rw [View.set_slice_whole, Rect.mem_set_unit]
  exact Iff.rfl

/-- Row r of the result is in the block of point r / 8000, and every point writes its block back. -/
theorem cover (i : S200000x1.Idx) :
    ∃ t : Fin cfg5.N, (cfg5.win 2).flush t = true ∧ i ∈ ((cfg5.win 2).blk t).view.set := by
  have hi0 : (i 0).val < 200000 := (i 0).isLt
  have hi1 : (i 1).val < 1 := (i 1).isLt
  have hN : grid5.N = 25 := N_5
  have ht : (i 0).val / 8000 < cfg5.N := by show (i 0).val / 8000 < grid5.N; omega
  obtain ⟨-, -, -, -, e0, e1⟩ := index_facts ⟨(i 0).val / 8000, ht⟩
  refine ⟨⟨(i 0).val / 8000, ht⟩, flush5_2 _, ?_⟩
  rw [mem_block]
  intro a
  match a with
  | ⟨0, _⟩ =>
    show win5_2.index ⟨(i 0).val / 8000, ht⟩ (0 : Fin 2) * 8000 ≤ (i 0).val
      ∧ (i 0).val < win5_2.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win5_2.index ⟨(i 0).val / 8000, ht⟩ (1 : Fin 2) * 1 ≤ (i 1).val
      ∧ (i 1).val < win5_2.index ⟨(i 0).val / 8000, ht⟩ (1 : Fin 2) * 1 + 1
    rw [e1]
    omega

/-! ## The array after the region -/

/-- After the region the result array is the aggregate, as the region found it, with the bias added to every row. -/
theorem final (c : Dev nD) :
    (dat5 (F := Ideal) V c).arrAt 2 cfg5.N
      = biasRows (V c main_v57 : S200000x1.Idx → EReal) (V c main_v58 : S1x1.Idx → EReal) :=
  (dat5 (F := Ideal) V c).arrAt_eq_of_cover 2 _ (fun t _ => flushed_eq V c t) cover

end Cert.KernelIdeal.Region5

end
-- ==== Proof.StageLawsScale.lean ====
/-
  The edge-weighting stage against the host program's own operations, as equations between whole arrays on the
  extended reals.

  The stage multiplies every row e of a matrix h by the e-th entry of a one-column matrix of weights. The weights start
  as a vector n of length 6600000. On one side the vector is laid out as a [6600000, 1] column (entry (e, 0) is n e) and
  the stage is applied to it. On the other side the vector is spread into a [6600000, 1] column along axis 0, that
  column is spread along the sixteen columns of h (or left as it is when h has one column), and the result is
  multiplied entry by entry with h, the weights as the LEFT factor. Both columns made of n read n e in row e, and
  multiplication of extended reals is commutative, so the two sides agree at every index.
-/
import proofs.«180675_j55284819034805_2_alg».proof.KernelIdeal
import proofs.«180675_j55284819034805_2_alg».proof.ReferenceIdeal
import proofs.«180675_j55284819034805_2_alg».proof.Proof.Stages
import Idealize.ShloMosaic.Lib.Pipeline.Value
import Idealize.ShloMosaic.Lib.ValueIdx
import Idealize.ShloMosaic.Lib.ValueLayout
import Idealize.ShloMosaic.PureOps.Ideal

noncomputable section

namespace Cert.StageLaws

open Idealize.ShloMosaic Idealize.ShloMosaic.ValueIdx

/-! ## The two ways of making a column of a vector, and a column spread along sixteen columns, at an index -/

/-- A vector laid out as a one-column matrix: entry (r, 0) is the vector's entry r. -/
theorem column_apply (n : (⟨1, ![6600000]⟩ : Shape).Idx → EReal)
    (hc : (⟨1, ![6600000]⟩ : Shape).ShapeCasts ⟨2, ![6600000, 1]⟩) (r : Fin 6600000) :
    shapeCast ⟨2, ![6600000, 1]⟩ n hc (ix2 r (0 : Fin 1)) = n (ix1 r) :=
  shapeCast_apply n hc (ix2 r (0 : Fin 1)) (ix1 r) (by
    rewrite [Shape.rowMajor_val_one, Shape.rowMajor_val_two]
    show r.val = r.val * 1 + 0
    omega)

/-- A vector spread into a one-column matrix along axis 0: entry (r, z) is the vector's entry r. -/
theorem spreadToColumn_apply (n : (⟨1, ![6600000]⟩ : Shape).Idx → EReal)
    (hb : (⟨1, ![6600000]⟩ : Shape).BroadcastsInDim ⟨2, ![6600000, 1]⟩ (![0] : Fin 1 → Fin 2)) (r : Fin 6600000) (z : Fin 1) :
    broadcastInDim ⟨2, ![6600000, 1]⟩ (![0] : Fin 1 → Fin 2) hb n (ix2 r z) = n (ix1 r) :=
  broadcastInDim_apply _ hb n (ix2 r z) (ix1 r) (fun a => match a with
    | ⟨0, _⟩ => by show r.val = if (6600000 : Nat) = 1 then 0 else r.val; rw [if_neg (by decide)])

/-- A one-column matrix spread along sixteen columns: entry (r, q) is the column's entry (r, 0). -/
theorem spreadColumn_apply (y : (⟨2, ![6600000, 1]⟩ : Shape).Idx → EReal)
    (hb : (⟨2, ![6600000, 1]⟩ : Shape).BroadcastsInDim ⟨2, ![6600000, 16]⟩ (![0, 1] : Fin 2 → Fin 2)) (r : Fin 6600000) (q : Fin 16) :
    broadcastInDim ⟨2, ![6600000, 16]⟩ (![0, 1] : Fin 2 → Fin 2) hb y (ix2 r q) = y (ix2 r (0 : Fin 1)) :=
  broadcastInDim_apply _ hb y (ix2 r q) (ix2 r (0 : Fin 1)) (fun a => match a with
    | ⟨0, _⟩ => by show r.val = if (6600000 : Nat) = 1 then 0 else r.val; rw [if_neg (by decide)]
    | ⟨1, _⟩ => by show 0 = if (1 : Nat) = 1 then 0 else q.val; rw [if_pos rfl])

/-! ## The stage is the host's product with the factors exchanged -/

/-- Sixteen columns: row e of h times n e, against (n spread to the shape of h) times h. -/
theorem scaleRows16_core (h : (⟨2, ![6600000, 16]⟩ : Shape).Idx → EReal) (n : (⟨1, ![6600000]⟩ : Shape).Idx → EReal)
    (hc : (⟨1, ![6600000]⟩ : Shape).ShapeCasts ⟨2, ![6600000, 1]⟩)
    (hb1 : (⟨1, ![6600000]⟩ : Shape).BroadcastsInDim ⟨2, ![6600000, 1]⟩ (![0] : Fin 1 → Fin 2))
    (hb2 : (⟨2, ![6600000, 1]⟩ : Shape).BroadcastsInDim ⟨2, ![6600000, 16]⟩ (![0, 1] : Fin 2 → Fin 2)) :
    Cert.Stages.scaleRows h (shapeCast ⟨2, ![6600000, 1]⟩ n hc)
      = fun i => broadcastInDim ⟨2, ![6600000, 16]⟩ (![0, 1] : Fin 2 → Fin 2) hb2
          (broadcastInDim ⟨2, ![6600000, 1]⟩ (![0] : Fin 1 → Fin 2) hb1 n) i * h i := by
  funext i
  obtain ⟨r, q, rfl⟩ : ∃ (r : Fin 6600000) (q : Fin 16), i = ix2 r q := ⟨i 0, i 1, eq_ix2 i⟩
  show h (ix2 r q) * shapeCast ⟨2, ![6600000, 1]⟩ n hc (ix2 r (0 : Fin 1)) = _
  rw [column_apply, spreadColumn_apply, spreadToColumn_apply, mul_comm]

/-- One column: entry e of h times n e, against (n spread into a column) times h. -/
theorem scaleRows1_core (h : (⟨2, ![6600000, 1]⟩ : Shape).Idx → EReal) (n : (⟨1, ![6600000]⟩ : Shape).Idx → EReal)
    (hc : (⟨1, ![6600000]⟩ : Shape).ShapeCasts ⟨2, ![6600000, 1]⟩)
    (hb1 : (⟨1, ![6600000]⟩ : Shape).BroadcastsInDim ⟨2, ![6600000, 1]⟩ (![0] : Fin 1 → Fin 2)) :
    Cert.Stages.scaleRows h (shapeCast ⟨2, ![6600000, 1]⟩ n hc)
      = fun i => broadcastInDim ⟨2, ![6600000, 1]⟩ (![0] : Fin 1 → Fin 2) hb1 n i * h i := by
  funext i
  obtain ⟨r, z, rfl⟩ : ∃ (r : Fin 6600000) (z : Fin 1), i = ix2 r z := ⟨i 0, i 1, eq_ix2 i⟩
  show h (ix2 r z) * shapeCast ⟨2, ![6600000, 1]⟩ n hc (ix2 r (0 : Fin 1)) = _
  rw [column_apply, spreadToColumn_apply, mul_comm]

/-! ## The same two equations over the two programs' own records -/

variable [Cert.KernelIdeal.Facts₀] [Cert.ReferenceIdeal.Facts₀]

theorem scaleRows16_eq (h : (⟨Cert.ReferenceIdeal.S6600000x16, .f32⟩ : BufTy).Contents (Elt Ideal))
    (n : (⟨Cert.ReferenceIdeal.S6600000, .f32⟩ : BufTy).Contents (Elt Ideal)) :
    Cert.Stages.scaleRows h (shapeCast Cert.KernelIdeal.S6600000x1 n Cert.KernelIdeal.Facts₀.shapeCasts_S6600000_S6600000x1)
      = mulf (F := Ideal) (s := Cert.ReferenceIdeal.S6600000x16) (φ := .f32)
          (broadcastInDim Cert.ReferenceIdeal.S6600000x16 ![0, 1] Cert.ReferenceIdeal.Facts₀.bcast_S6600000x1_S6600000x16_0_1
            (broadcastInDim Cert.ReferenceIdeal.S6600000x1 ![0] Cert.ReferenceIdeal.Facts₀.bcast_S6600000_S6600000x1_0 n)) h :=
  scaleRows16_core h n _ _ _

theorem scaleRows1_eq (h : (⟨Cert.ReferenceIdeal.S6600000x1, .f32⟩ : BufTy).Contents (Elt Ideal))
    (n : (⟨Cert.ReferenceIdeal.S6600000, .f32⟩ : BufTy).Contents (Elt Ideal)) :
    Cert.Stages.scaleRows h (shapeCast Cert.KernelIdeal.S6600000x1 n Cert.KernelIdeal.Facts₀.shapeCasts_S6600000_S6600000x1)
      = mulf (F := Ideal) (s := Cert.ReferenceIdeal.S6600000x1) (φ := .f32)
          (broadcastInDim Cert.ReferenceIdeal.S6600000x1 ![0] Cert.ReferenceIdeal.Facts₀.bcast_S6600000_S6600000x1_0 n) h :=
  scaleRows1_core h n _ _

end Cert.StageLaws

end
-- ==== Proof.StageLawsBias.lean ====
/-
  The two bias stages as the reference program writes them.

  The reference adds a bias vector to every row of an aggregate by first repeating the vector into a one-row matrix,
  then repeating that row down all the rows, and adding entry by entry; after the first layer it then takes the
  maximum with a zero repeated over the whole array. The kernel program instead reshapes the bias vector [f] to one row
  [1, f] and hands it to a stage that adds the row to every row. Entry (p, q) of either side is the aggregate's entry
  (p, q) plus the q-th bias entry (and, after the first layer, the maximum of that with 0), so the two whole arrays
  are equal.
-/
import proofs.«180675_j55284819034805_2_alg».proof.KernelIdeal
import proofs.«180675_j55284819034805_2_alg».proof.ReferenceIdeal
import proofs.«180675_j55284819034805_2_alg».proof.Proof.Stages
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.StageLaws

open Idealize.ShloMosaic Idealize.ShloMosaic.ValueIdx

-- the side conditions the two programs state over their shapes (each a proposition: any two proofs agree)
variable [Cert.KernelIdeal.Facts₀] [Cert.ReferenceIdeal.Facts₀]

/-! ## The first layer's bias and rectifier, sixteen columns -/

/-- The bias vector repeated into one row and then down all the rows reads, at (p, q), the q-th bias entry. -/
theorem repeated16_at (b : (⟨Cert.ReferenceIdeal.S16, .f32⟩ : BufTy).Contents (Elt Ideal)) (p : Fin 200000) (q : Fin 16) :
    broadcastInDim Cert.ReferenceIdeal.S200000x16 ![0, 1] Cert.ReferenceIdeal.Facts₀.bcast_S1x16_S200000x16_0_1
        (broadcastInDim Cert.ReferenceIdeal.S1x16 ![1] Cert.ReferenceIdeal.Facts₀.bcast_S16_S1x16_1 b) (ix2 p q)
      = b (ix1 q) :=
  (broadcastInDim_apply _ Cert.ReferenceIdeal.Facts₀.bcast_S1x16_S200000x16_0_1 _ (ix2 p q) (ix2 (0 : Fin 1) q)
      (fun ax => match ax with
        | ⟨0, _⟩ => by show 0 = if (1 : Nat) = 1 then 0 else p.val; rw [if_pos rfl]
        | ⟨1, _⟩ => by show q.val = if (16 : Nat) = 1 then 0 else q.val; rw [if_neg (by decide)])).trans
    (broadcastInDim_apply _ Cert.ReferenceIdeal.Facts₀.bcast_S16_S1x16_1 b (ix2 (0 : Fin 1) q) (ix1 q)
      (fun ax => match ax with
        | ⟨0, _⟩ => by show q.val = if (16 : Nat) = 1 then 0 else q.val; rw [if_neg (by decide)]))

/-- The zero constant repeated over the whole array reads 0 everywhere. -/
theorem zeros16_at (p : Fin 200000) (q : Fin 16) :
    broadcastInDim Cert.ReferenceIdeal.S200000x16 ![] Cert.ReferenceIdeal.Facts₀.bcast_S_S200000x16
        (constant (F := Ideal) Cert.ReferenceIdeal.S_ .f32 0x00000000#32) (ix2 p q) = (0 : EReal) :=
  (broadcastInDim_apply _ Cert.ReferenceIdeal.Facts₀.bcast_S_S200000x16 _ (ix2 p q) ix0 (fun ax => ax.elim0)).trans
    ((constant_apply _ _).trans Ideal.ofBits_zero_f32)

/-- The bias row added to every row and the rectifier, on the reshaped bias vector, is the reference's sum with the
    repeated bias followed by the maximum with the repeated zero. -/
theorem biasRelu_eq (a : (⟨Cert.ReferenceIdeal.S200000x16, .f32⟩ : BufTy).Contents (Elt Ideal))
    (b : (⟨Cert.ReferenceIdeal.S16, .f32⟩ : BufTy).Contents (Elt Ideal)) :
    Cert.Stages.biasRelu a (shapeCast Cert.KernelIdeal.S1x16 b Cert.KernelIdeal.Facts₀.shapeCasts_S16_S1x16)
      = maximumf (addf a (broadcastInDim Cert.ReferenceIdeal.S200000x16 ![0, 1] Cert.ReferenceIdeal.Facts₀.bcast_S1x16_S200000x16_0_1
            (broadcastInDim Cert.ReferenceIdeal.S1x16 ![1] Cert.ReferenceIdeal.Facts₀.bcast_S16_S1x16_1 b)))
          (broadcastInDim Cert.ReferenceIdeal.S200000x16 ![] Cert.ReferenceIdeal.Facts₀.bcast_S_S200000x16
            (constant (F := Ideal) Cert.ReferenceIdeal.S_ .f32 0x00000000#32)) := by
  funext i
  obtain ⟨p, q, rfl⟩ : ∃ (p : Fin 200000) (q : Fin 16), i = ix2 p q := ⟨i 0, i 1, eq_ix2 i⟩
  have hb : shapeCast Cert.KernelIdeal.S1x16 b Cert.KernelIdeal.Facts₀.shapeCasts_S16_S1x16 (ix2 (0 : Fin 1) q) = b (ix1 q) :=
    shapeCast_a_1a_apply b _ 0 q
  show max (a (ix2 p q) + shapeCast Cert.KernelIdeal.S1x16 b Cert.KernelIdeal.Facts₀.shapeCasts_S16_S1x16 (ix2 (0 : Fin 1) q)) 0
      = max (a (ix2 p q) + broadcastInDim Cert.ReferenceIdeal.S200000x16 ![0, 1] Cert.ReferenceIdeal.Facts₀.bcast_S1x16_S200000x16_0_1
            (broadcastInDim Cert.ReferenceIdeal.S1x16 ![1] Cert.ReferenceIdeal.Facts₀.bcast_S16_S1x16_1 b) (ix2 p q))
          (broadcastInDim Cert.ReferenceIdeal.S200000x16 ![] Cert.ReferenceIdeal.Facts₀.bcast_S_S200000x16
            (constant (F := Ideal) Cert.ReferenceIdeal.S_ .f32 0x00000000#32) (ix2 p q))
  rw [hb, repeated16_at b p q, zeros16_at p q]

/-! ## The second layer's bias, one column -/

/-- The one-entry bias repeated into a one-by-one matrix and then down all the rows reads the bias entry everywhere. -/
theorem repeated1_at (b : (⟨Cert.ReferenceIdeal.S1, .f32⟩ : BufTy).Contents (Elt Ideal)) (p : Fin 200000) (q : Fin 1) :
    broadcastInDim Cert.ReferenceIdeal.S200000x1 ![0, 1] Cert.ReferenceIdeal.Facts₀.bcast_S1x1_S200000x1_0_1
        (broadcastInDim Cert.ReferenceIdeal.S1x1 ![1] Cert.ReferenceIdeal.Facts₀.bcast_S1_S1x1_1 b) (ix2 p q)
      = b (ix1 (0 : Fin 1)) :=
  (broadcastInDim_apply _ Cert.ReferenceIdeal.Facts₀.bcast_S1x1_S200000x1_0_1 _ (ix2 p q) (ix2 (0 : Fin 1) (0 : Fin 1))
      (fun ax => match ax with
        | ⟨0, _⟩ => by show 0 = if (1 : Nat) = 1 then 0 else p.val; rw [if_pos rfl]
        | ⟨1, _⟩ => by show 0 = if (1 : Nat) = 1 then 0 else q.val; rw [if_pos rfl])).trans
    (broadcastInDim_apply _ Cert.ReferenceIdeal.Facts₀.bcast_S1_S1x1_1 b (ix2 (0 : Fin 1) (0 : Fin 1)) (ix1 (0 : Fin 1))
      (fun ax => match ax with
        | ⟨0, _⟩ => by show 0 = if (1 : Nat) = 1 then 0 else 0; rw [if_pos rfl]))

/-- The bias row added to every row, on the reshaped one-entry bias, is the reference's sum with the repeated bias. -/
theorem biasRows_eq (a : (⟨Cert.ReferenceIdeal.S200000x1, .f32⟩ : BufTy).Contents (Elt Ideal))
    (b : (⟨Cert.ReferenceIdeal.S1, .f32⟩ : BufTy).Contents (Elt Ideal)) :
    Cert.Stages.biasRows a (shapeCast Cert.KernelIdeal.S1x1 b Cert.KernelIdeal.Facts₀.shapeCasts_S1_S1x1)
      = (addf a (broadcastInDim Cert.ReferenceIdeal.S200000x1 ![0, 1] Cert.ReferenceIdeal.Facts₀.bcast_S1x1_S200000x1_0_1
          (broadcastInDim Cert.ReferenceIdeal.S1x1 ![1] Cert.ReferenceIdeal.Facts₀.bcast_S1_S1x1_1 b))
        : FVec Ideal Cert.ReferenceIdeal.S200000x1 .f32) := by
  funext i
  obtain ⟨p, q, rfl⟩ : ∃ (p : Fin 200000) (q : Fin 1), i = ix2 p q := ⟨i 0, i 1, eq_ix2 i⟩
  obtain rfl : q = 0 := Subsingleton.elim _ _
  have hb : shapeCast Cert.KernelIdeal.S1x1 b Cert.KernelIdeal.Facts₀.shapeCasts_S1_S1x1 (ix2 (0 : Fin 1) (0 : Fin 1))
      = b (ix1 (0 : Fin 1)) := shapeCast_a_1a_apply b _ 0 0
  show a (ix2 p (0 : Fin 1)) + shapeCast Cert.KernelIdeal.S1x1 b Cert.KernelIdeal.Facts₀.shapeCasts_S1_S1x1 (ix2 (0 : Fin 1) (0 : Fin 1))
      = a (ix2 p (0 : Fin 1)) + broadcastInDim Cert.ReferenceIdeal.S200000x1 ![0, 1] Cert.ReferenceIdeal.Facts₀.bcast_S1x1_S200000x1_0_1
          (broadcastInDim Cert.ReferenceIdeal.S1x1 ![1] Cert.ReferenceIdeal.Facts₀.bcast_S1_S1x1_1 b) (ix2 p (0 : Fin 1))
  rw [hb, repeated1_at b p 0]

end Cert.StageLaws

end
-- ==== Proof.Chain.lean ====
/-
  The idealized kernel program's buffers, boundary by boundary, as the reference program's stages.

  @main alternates stretches of host operations with six kernel regions. At every boundary between two segments the
  buffers a later segment reads are identified with the reference's stage of the same argument arrays: a host stretch
  applies to equal operands the operations the reference applies (gathers at the sources, sums at the targets), and a
  region's output array is the dense stage it computes block by block — a matrix product, the rows times the edge
  weights, the bias row added with or without the rectifier — which is the reference's host operation of equal
  operands; the one law used is that a product of two extended reals does not depend on the order of its factors.
  The vectors `row`, `col`, the edge weights and the arguments are carried unchanged through the segments that do not
  write them.
-/
import proofs.«180675_j55284819034805_2_alg».proof.Proof.Entry
import proofs.«180675_j55284819034805_2_alg».proof.Proof.Region0
import proofs.«180675_j55284819034805_2_alg».proof.Proof.Region1
import proofs.«180675_j55284819034805_2_alg».proof.Proof.Region2
import proofs.«180675_j55284819034805_2_alg».proof.Proof.Region3
import proofs.«180675_j55284819034805_2_alg».proof.Proof.Region4
import proofs.«180675_j55284819034805_2_alg».proof.Proof.Region5
import proofs.«180675_j55284819034805_2_alg».proof.Proof.StageLawsScale
import proofs.«180675_j55284819034805_2_alg».proof.Proof.StageLawsBias

set_option maxRecDepth 16384

noncomputable section

namespace Cert.KernelIdeal.Bridge

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Layer 1 -/

/-- The first projection: region 0 leaves x·W1, the reference's dot product. -/
theorem b4_proj : W4 (F := Ideal) m ρ c (Proc.devRef .tc main_v32) = val_main_v31 (F := Ideal) (m ((c : Thread nD τ).loc main_arg0)) (m ((c : Thread nD τ).loc main_arg2)) := by
  refine (W4_arr m ρ c 2).trans ((Region0.final (V3 m ρ) c).trans ?_)
  rw [show V3 m ρ c main_arg0 = m ((c : Thread nD τ).loc main_arg0) from entry_arg0 m ρ c, show V3 m ρ c main_arg2 = m ((c : Thread nD τ).loc main_arg2) from entry_arg2 m ρ c]
  exact (Cert.Products.dotGeneral_eq _ rfl rfl rfl rfl rfl rfl none _ _ _).symm

theorem b4_row : W4 (F := Ideal) m ρ c (Proc.devRef .tc main_v3) = val_main_v3 (F := Ideal) (m ((c : Thread nD τ).loc main_arg1)) :=
  (W4_of_ne m ρ c main_v3 (by decide)).trans (entry_row m ρ c)

theorem b4_col : W4 (F := Ideal) m ρ c (Proc.devRef .tc main_v6) = val_main_v6 (F := Ideal) (m ((c : Thread nD τ).loc main_arg1)) :=
  (W4_of_ne m ρ c main_v6 (by decide)).trans (entry_col m ρ c)

theorem b4_norm : W4 (F := Ideal) m ρ c (Proc.devRef .tc main_v31) = normColumn (m ((c : Thread nD τ).loc main_arg1)) :=
  (W4_of_ne m ρ c main_v31 (by decide)).trans (entry_norm m ρ c)

theorem b4_a3 : W4 (F := Ideal) m ρ c (Proc.devRef .tc main_arg3) = m ((c : Thread nD τ).loc main_arg3) :=
  (W4_of_ne m ρ c main_arg3 (by decide)).trans (entry_arg3 m ρ c)

theorem b4_a4 : W4 (F := Ideal) m ρ c (Proc.devRef .tc main_arg4) = m ((c : Thread nD τ).loc main_arg4) :=
  (W4_of_ne m ρ c main_arg4 (by decide)).trans (entry_arg4 m ρ c)

theorem b4_a5 : W4 (F := Ideal) m ρ c (Proc.devRef .tc main_arg5) = m ((c : Thread nD τ).loc main_arg5) :=
  (W4_of_ne m ρ c main_arg5 (by decide)).trans (entry_arg5 m ρ c)

/-- The projected rows gathered at the sources. -/
theorem b5_rows : W5 (F := Ideal) m ρ c (Proc.devRef .tc main_v39) = val_main_v39 (F := Ideal) (m ((c : Thread nD τ).loc main_arg0)) (m ((c : Thread nD τ).loc main_arg1)) (m ((c : Thread nD τ).loc main_arg2)) := by
  show StableHlo.after hostOps1 (W4 m ρ c) (Proc.devRef .tc main_v39) = _
  after_results_through
  rw [b4_proj m ρ c, b4_row m ρ c]
  rfl

theorem b5_row : W5 (F := Ideal) m ρ c (Proc.devRef .tc main_v3) = val_main_v3 (F := Ideal) (m ((c : Thread nD τ).loc main_arg1)) := by
  show StableHlo.after hostOps1 (W4 m ρ c) (Proc.devRef .tc main_v3) = _
  after_results_through
  exact b4_row m ρ c

theorem b5_col : W5 (F := Ideal) m ρ c (Proc.devRef .tc main_v6) = val_main_v6 (F := Ideal) (m ((c : Thread nD τ).loc main_arg1)) := by
  show StableHlo.after hostOps1 (W4 m ρ c) (Proc.devRef .tc main_v6) = _
  after_results_through
  exact b4_col m ρ c

theorem b5_norm : W5 (F := Ideal) m ρ c (Proc.devRef .tc main_v31) = normColumn (m ((c : Thread nD τ).loc main_arg1)) := by
  show StableHlo.after hostOps1 (W4 m ρ c) (Proc.devRef .tc main_v31) = _
  after_results_through
  exact b4_norm m ρ c

theorem b5_a3 : W5 (F := Ideal) m ρ c (Proc.devRef .tc main_arg3) = m ((c : Thread nD τ).loc main_arg3) := by
  show StableHlo.after hostOps1 (W4 m ρ c) (Proc.devRef .tc main_arg3) = _
  after_results_through
  exact b4_a3 m ρ c

theorem b5_a4 : W5 (F := Ideal) m ρ c (Proc.devRef .tc main_arg4) = m ((c : Thread nD τ).loc main_arg4) := by
  show StableHlo.after hostOps1 (W4 m ρ c) (Proc.devRef .tc main_arg4) = _
  after_results_through
  exact b4_a4 m ρ c

theorem b5_a5 : W5 (F := Ideal) m ρ c (Proc.devRef .tc main_arg5) = m ((c : Thread nD τ).loc main_arg5) := by
  show StableHlo.after hostOps1 (W4 m ρ c) (Proc.devRef .tc main_arg5) = _
  after_results_through
  exact b4_a5 m ρ c

/-- The messages: every gathered row times its edge weight (region 1), the reference's product in the other order. -/
theorem b6_msg : W6 (F := Ideal) m ρ c (Proc.devRef .tc main_v40) = val_main_v41 (F := Ideal) (m ((c : Thread nD τ).loc main_arg0)) (m ((c : Thread nD τ).loc main_arg1)) (m ((c : Thread nD τ).loc main_arg2)) := by
  refine (W6_arr m ρ c 2).trans ((Region1.final (V5 m ρ) c).trans ?_)
  rw [show V5 m ρ c main_v39 = _ from b5_rows m ρ c, show V5 m ρ c main_v31 = _ from b5_norm m ρ c]
  unfold normColumn
  exact Cert.StageLaws.scaleRows16_eq _ _

theorem b6_row : W6 (F := Ideal) m ρ c (Proc.devRef .tc main_v3) = val_main_v3 (F := Ideal) (m ((c : Thread nD τ).loc main_arg1)) :=
  (W6_of_ne m ρ c main_v3 (by decide)).trans (b5_row m ρ c)

theorem b6_col : W6 (F := Ideal) m ρ c (Proc.devRef .tc main_v6) = val_main_v6 (F := Ideal) (m ((c : Thread nD τ).loc main_arg1)) :=
  (W6_of_ne m ρ c main_v6 (by decide)).trans (b5_col m ρ c)

theorem b6_norm : W6 (F := Ideal) m ρ c (Proc.devRef .tc main_v31) = normColumn (m ((c : Thread nD τ).loc main_arg1)) :=
  (W6_arr m ρ c 1).trans ((((dat1 (V5 m ρ) c).arrAt_in 1 rfl _).trans (A_eq1 (V5 m ρ) c 1)).trans (b5_norm m ρ c))

theorem b6_a3 : W6 (F := Ideal) m ρ c (Proc.devRef .tc main_arg3) = m ((c : Thread nD τ).loc main_arg3) :=
  (W6_of_ne m ρ c main_arg3 (by decide)).trans (b5_a3 m ρ c)

theorem b6_a4 : W6 (F := Ideal) m ρ c (Proc.devRef .tc main_arg4) = m ((c : Thread nD τ).loc main_arg4) :=
  (W6_of_ne m ρ c main_arg4 (by decide)).trans (b5_a4 m ρ c)

theorem b6_a5 : W6 (F := Ideal) m ρ c (Proc.devRef .tc main_arg5) = m ((c : Thread nD τ).loc main_arg5) :=
  (W6_of_ne m ρ c main_arg5 (by decide)).trans (b5_a5 m ρ c)

/-- The messages summed at their targets. -/
theorem b7_agg : W7 (F := Ideal) m ρ c (Proc.devRef .tc main_v43) = val_main_v44 (F := Ideal) (m ((c : Thread nD τ).loc main_arg0)) (m ((c : Thread nD τ).loc main_arg1)) (m ((c : Thread nD τ).loc main_arg2)) := by
  show StableHlo.after hostOps2 (W6 m ρ c) (Proc.devRef .tc main_v43) = _
  after_results_through
  rw [b6_msg m ρ c, b6_col m ρ c]
  rfl
/-- The first bias as one row. -/
theorem b7_bias : W7 (F := Ideal) m ρ c (Proc.devRef .tc main_v44) = shapeCast S1x16 (m ((c : Thread nD τ).loc main_arg3)) shapeCasts_S16_S1x16 := by
  show StableHlo.after hostOps2 (W6 m ρ c) (Proc.devRef .tc main_v44) = _
  after_results_through
  rw [b6_a3 m ρ c]
  try rfl

theorem b7_row : W7 (F := Ideal) m ρ c (Proc.devRef .tc main_v3) = val_main_v3 (F := Ideal) (m ((c : Thread nD τ).loc main_arg1)) := by
  show StableHlo.after hostOps2 (W6 m ρ c) (Proc.devRef .tc main_v3) = _
  after_results_through
  exact b6_row m ρ c

theorem b7_col : W7 (F := Ideal) m ρ c (Proc.devRef .tc main_v6) = val_main_v6 (F := Ideal) (m ((c : Thread nD τ).loc main_arg1)) := by
  show StableHlo.after hostOps2 (W6 m ρ c) (Proc.devRef .tc main_v6) = _
  after_results_through
  exact b6_col m ρ c

theorem b7_norm : W7 (F := Ideal) m ρ c (Proc.devRef .tc main_v31) = normColumn (m ((c : Thread nD τ).loc main_arg1)) := by
  show StableHlo.after hostOps2 (W6 m ρ c) (Proc.devRef .tc main_v31) = _
  after_results_through
  exact b6_norm m ρ c

theorem b7_a4 : W7 (F := Ideal) m ρ c (Proc.devRef .tc main_arg4) = m ((c : Thread nD τ).loc main_arg4) := by
  show StableHlo.after hostOps2 (W6 m ρ c) (Proc.devRef .tc main_arg4) = _
  after_results_through
  exact b6_a4 m ρ c

theorem b7_a5 : W7 (F := Ideal) m ρ c (Proc.devRef .tc main_arg5) = m ((c : Thread nD τ).loc main_arg5) := by
  show StableHlo.after hostOps2 (W6 m ρ c) (Proc.devRef .tc main_arg5) = _
  after_results_through
  exact b6_a5 m ρ c

/-- The hidden layer: bias added, rectified (region 2). -/
theorem b8_hidden : W8 (F := Ideal) m ρ c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) := by
  refine (W8_arr m ρ c 2).trans ((Region2.final (V7 m ρ) c).trans ?_)
  rw [show V7 m ρ c main_v43 = _ from b7_agg m ρ c, show V7 m ρ c main_v44 = _ from b7_bias m ρ c]
  exact Cert.StageLaws.biasRelu_eq _ _

theorem b8_row : W8 (F := Ideal) m ρ c (Proc.devRef .tc main_v3) = val_main_v3 (F := Ideal) (m ((c : Thread nD τ).loc main_arg1)) :=
  (W8_of_ne m ρ c main_v3 (by decide)).trans (b7_row m ρ c)

theorem b8_col : W8 (F := Ideal) m ρ c (Proc.devRef .tc main_v6) = val_main_v6 (F := Ideal) (m ((c : Thread nD τ).loc main_arg1)) :=
  (W8_of_ne m ρ c main_v6 (by decide)).trans (b7_col m ρ c)

theorem b8_norm : W8 (F := Ideal) m ρ c (Proc.devRef .tc main_v31) = normColumn (m ((c : Thread nD τ).loc main_arg1)) :=
  (W8_of_ne m ρ c main_v31 (by decide)).trans (b7_norm m ρ c)

theorem b8_a4 : W8 (F := Ideal) m ρ c (Proc.devRef .tc main_arg4) = m ((c : Thread nD τ).loc main_arg4) :=
  (W8_of_ne m ρ c main_arg4 (by decide)).trans (b7_a4 m ρ c)

theorem b8_a5 : W8 (F := Ideal) m ρ c (Proc.devRef .tc main_arg5) = m ((c : Thread nD τ).loc main_arg5) :=
  (W8_of_ne m ρ c main_arg5 (by decide)).trans (b7_a5 m ρ c)

/-! ## Layer 2 -/

/-- The second projection (region 3). -/
theorem b9_proj : W9 (F := Ideal) m ρ c (Proc.devRef .tc main_v46) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W9_arr m ρ c 2).trans ((Region3.final (V8 m ρ) c).trans ?_)
  rw [show V8 m ρ c main_v45 = _ from b8_hidden m ρ c, show V8 m ρ c main_arg4 = _ from b8_a4 m ρ c]
  exact (Cert.Products.dotGeneral_eq _ rfl rfl rfl rfl rfl rfl none _ _ _).symm

theorem b9_row : W9 (F := Ideal) m ρ c (Proc.devRef .tc main_v3) = val_main_v3 (F := Ideal) (m ((c : Thread nD τ).loc main_arg1)) :=
  (W9_of_ne m ρ c main_v3 (by decide)).trans (b8_row m ρ c)

theorem b9_col : W9 (F := Ideal) m ρ c (Proc.devRef .tc main_v6) = val_main_v6 (F := Ideal) (m ((c : Thread nD τ).loc main_arg1)) :=
  (W9_of_ne m ρ c main_v6 (by decide)).trans (b8_col m ρ c)

theorem b9_norm : W9 (F := Ideal) m ρ c (Proc.devRef .tc main_v31) = normColumn (m ((c : Thread nD τ).loc main_arg1)) :=
  (W9_of_ne m ρ c main_v31 (by decide)).trans (b8_norm m ρ c)

theorem b9_a5 : W9 (F := Ideal) m ρ c (Proc.devRef .tc main_arg5) = m ((c : Thread nD τ).loc main_arg5) :=
  (W9_of_ne m ρ c main_arg5 (by decide)).trans (b8_a5 m ρ c)

theorem b10_rows : W10 (F := Ideal) m ρ c (Proc.devRef .tc main_v53) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps4 (W9 m ρ c) (Proc.devRef .tc main_v53) = _
  after_results_through
  rw [b9_proj m ρ c, b9_row m ρ c]
  rfl

theorem b10_col : W10 (F := Ideal) m ρ c (Proc.devRef .tc main_v6) = val_main_v6 (F := Ideal) (m ((c : Thread nD τ).loc main_arg1)) := by
  show StableHlo.after hostOps4 (W9 m ρ c) (Proc.devRef .tc main_v6) = _
  after_results_through
  exact b9_col m ρ c

theorem b10_norm : W10 (F := Ideal) m ρ c (Proc.devRef .tc main_v31) = normColumn (m ((c : Thread nD τ).loc main_arg1)) := by
  show StableHlo.after hostOps4 (W9 m ρ c) (Proc.devRef .tc main_v31) = _
  after_results_through
  exact b9_norm m ρ c

theorem b10_a5 : W10 (F := Ideal) m ρ c (Proc.devRef .tc main_arg5) = m ((c : Thread nD τ).loc main_arg5) := by
  show StableHlo.after hostOps4 (W9 m ρ c) (Proc.devRef .tc main_arg5) = _
  after_results_through
  exact b9_a5 m ρ c

/-- The second layer's messages (region 4); the reference recomputes the edge weights, the same function of the edge list. -/
theorem b11_msg : W11 (F := Ideal) m ρ c (Proc.devRef .tc main_v54) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W11_arr m ρ c 2).trans ((Region4.final (V10 m ρ) c).trans ?_)
  rw [show V10 m ρ c main_v53 = _ from b10_rows m ρ c, show V10 m ρ c main_v31 = _ from b10_norm m ρ c]
  unfold normColumn
  exact Cert.StageLaws.scaleRows1_eq _ _

theorem b11_col : W11 (F := Ideal) m ρ c (Proc.devRef .tc main_v6) = val_main_v6 (F := Ideal) (m ((c : Thread nD τ).loc main_arg1)) :=
  (W11_of_ne m ρ c main_v6 (by decide)).trans (b10_col m ρ c)

theorem b11_a5 : W11 (F := Ideal) m ρ c (Proc.devRef .tc main_arg5) = m ((c : Thread nD τ).loc main_arg5) :=
  (W11_of_ne m ρ c main_arg5 (by decide)).trans (b10_a5 m ρ c)

theorem b12_agg : W12 (F := Ideal) m ρ c (Proc.devRef .tc main_v57) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps5 (W11 m ρ c) (Proc.devRef .tc main_v57) = _
  after_results_through
  rw [b11_msg m ρ c, b11_col m ρ c]
  rfl
theorem b12_bias : W12 (F := Ideal) m ρ c (Proc.devRef .tc main_v58) = shapeCast S1x1 (m ((c : Thread nD τ).loc main_arg5)) shapeCasts_S1_S1x1 := by
  show StableHlo.after hostOps5 (W11 m ρ c) (Proc.devRef .tc main_v58) = _
  after_results_through
  rw [b11_a5 m ρ c]
  try rfl

/-- The output column: the second bias added (region 5). -/
theorem b13_out : W13 (F := Ideal) m ρ c (Proc.devRef .tc main_v59) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W13_arr m ρ c 2).trans ((Region5.final (V12 m ρ) c).trans ?_)
  rw [show V12 m ρ c main_v57 = _ from b12_agg m ρ c, show V12 m ρ c main_v58 = _ from b12_bias m ρ c]
  exact Cert.StageLaws.biasRows_eq _ _

/-- THE RESULT: the output column as a vector is the reference's result stage of the same arguments. -/
theorem result_eq : W14 (F := Ideal) m ρ c (Proc.devRef .tc main_v60) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps6 (W13 m ρ c) (Proc.devRef .tc main_v60) = _
  after_results_through
  rw [b13_out m ρ c]
  rfl

end Cert.KernelIdeal.Bridge

end
-- ==== Proof.lean ====
/-
  Two graph-convolution layers with self-loops, symmetric degree normalisation and a rectifier between them:
  the kernel program against its plain reference, equal on the extended reals.

  Both programs build, from the edge list, the source and target vectors with one self-loop per node appended, the
  degree of every node as a sum of ones over the targets, its inverse square root where positive, and the weight of
  an edge as the product of the scales of its two ends. A layer then projects the node features by a weight matrix,
  gathers the projected rows at the sources, multiplies each by its edge weight, sums them at the targets and adds
  the bias; the first layer ends in max(·, 0), the second in a vector view of its one output column.

  The kernel program computes the projections, the per-edge scaling and the bias stages in six kernel regions, each
  over blocks of 8000 rows; the gathers and sums stay host operations, the same as the reference's. A region's output
  array is its dense stage of the whole input arrays (a row block of a product depends only on that row block of the
  left factor; the other stages act row by row), the narrowing of the factors before the matrix unit is the identity
  on extended reals, and the kernel's h·w against the reference's w·h is the commutativity of the product. The
  reference recomputes the edge weights for the second layer; they are the same function of the edge list. No
  finiteness of the inputs is used.

  The three frames: the two kernel programs' are the generated ones; the reference has no kernel, its frame is its
  run with the result dropped. The idealization rewrote no operation, so `preserves` is trivial.
-/
import proofs.«180675_j55284819034805_2_alg».proof.Defs
import proofs.«180675_j55284819034805_2_alg».proof.Proof.Gen.Kernel
import proofs.«180675_j55284819034805_2_alg».proof.Proof.Gen.Kernel.Skeleton
import proofs.«180675_j55284819034805_2_alg».proof.Proof.Gen.Kernel.Launch
import proofs.«180675_j55284819034805_2_alg».proof.Proof.Gen.Kernel.Points
import proofs.«180675_j55284819034805_2_alg».proof.Proof.Gen.Kernel.Frame
import proofs.«180675_j55284819034805_2_alg».proof.Proof.Gen.KernelIdeal
import proofs.«180675_j55284819034805_2_alg».proof.Proof.Gen.KernelIdeal.Skeleton
import proofs.«180675_j55284819034805_2_alg».proof.Proof.Gen.KernelIdeal.Launch
import proofs.«180675_j55284819034805_2_alg».proof.Proof.Gen.KernelIdeal.Points
import proofs.«180675_j55284819034805_2_alg».proof.Proof.Gen.KernelIdeal.Frame
import proofs.«180675_j55284819034805_2_alg».proof.Proof.Gen.ReferenceIdeal
import proofs.«180675_j55284819034805_2_alg».proof.Proof.Gen.Pre_finite_inputs
import proofs.«180675_j55284819034805_2_alg».proof.Proof.NamedRun
import proofs.«180675_j55284819034805_2_alg».proof.Proof.Chain
import proofs.«180675_j55284819034805_2_alg».proof.Proof.RefRun
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both programs end with the reference's result stage of the (agreeing) argument arrays in their result buffer. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.ReadP.val_main_v89 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Bridge.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
